-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S400x10000 : Shape := ⟨2, ![400, 10000]⟩
abbrev S400x128 : Shape := ⟨2, ![400, 128]⟩
abbrev S800x10000 : Shape := ⟨2, ![800, 10000]⟩

abbrev nBuf : Space → Nat
  | .hbm => 9
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S400x10000, .f32⟩
  | .local _ .vmem, ⟨1, _⟩ => ⟨S400x10000, .f32⟩
  | .local _ .vmem, ⟨2, _⟩ => ⟨S10000x128, .f32⟩
  | .local _ .vmem, ⟨3, _⟩ => ⟨S128x128, .f32⟩
  | .local _ .vmem, ⟨4, _⟩ => ⟨S1x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .f32⟩
  | .local _ .vmem, ⟨10, _⟩ => ⟨S800x10000, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![50], ![false]⟩

def k0_cond1 (i : grid0.Coords) : BitVec 1 :=
  let arg0 : BitVec 32 := BitVec.ofNat 32 (i 0).val
  let c25_i32 : BitVec 32 := 25#32
  let v0 : BitVec 1 := Scalar.cmpi .slt arg0 c25_i32
  let v1 : BitVec 32 := Scalar.extui v0
  let c0_i32 : BitVec 32 := 0#32
  let v2 : BitVec 1 := Scalar.cmpi .ne v1 c0_i32
  v2

def k0_off1 (i : grid0.Coords) : Fin 2 → Nat :=
  let arg0 : BitVec 32 := BitVec.ofNat 32 (i 0).val
  let c400_i32 : BitVec 32 := 400#32
  let v34 : BitVec 32 := Scalar.muli arg0 c400_i32
  let v35 : Index := Scalar.indexCast v34
  let c0_19 : Index := 0#32
  ![v35.toNat, 0]
def k0_cond2 (i : grid0.Coords) : BitVec 1 :=
  let arg0 : BitVec 32 := BitVec.ofNat 32 (i 0).val
  let c22_i32 : BitVec 32 := 22#32
  let v3 : BitVec 1 := Scalar.cmpi .sge arg0 c22_i32
  let c23_i32 : BitVec 32 := 23#32
  let v4 : BitVec 1 := Scalar.cmpi .sle arg0 c23_i32
  let v5 : BitVec 1 := Scalar.andi v3 v4
  let v6 : BitVec 32 := Scalar.extui v5
  let c0_i32_0 : BitVec 32 := 0#32
  let v7 : BitVec 1 := Scalar.cmpi .ne v6 c0_i32_0
  v7

def k0_off2 (i : grid0.Coords) : Fin 2 → Nat :=
  let arg0 : BitVec 32 := BitVec.ofNat 32 (i 0).val
  let c22_i32_7 : BitVec 32 := 22#32
  let v20 : BitVec 32 := Scalar.subi arg0 c22_i32_7
  let c400_i32 : BitVec 32 := 400#32
  let v21 : BitVec 32 := Scalar.muli v20 c400_i32
  let v22 : Index := Scalar.indexCast v21
  let c0_8 : Index := 0#32
  ![v22.toNat, 0]
def k0_cond4 (i : grid0.Coords) : BitVec 1 :=
  let arg0 : BitVec 32 := BitVec.ofNat 32 (i 0).val
  let c25_i32_3 : BitVec 32 := 25#32
  let v13 : BitVec 1 := Scalar.cmpi .sgt arg0 c25_i32_3
  let c27_i32_4 : BitVec 32 := 27#32
  let v14 : BitVec 1 := Scalar.cmpi .sle arg0 c27_i32_4
  let v15 : BitVec 1 := Scalar.andi v13 v14
  let v16 : BitVec 32 := Scalar.extui v15
  let c0_i32_5 : BitVec 32 := 0#32
  let v17 : BitVec 1 := Scalar.cmpi .ne v16 c0_i32_5
  v17

def k0_off3 (i : grid0.Coords) : Fin 2 → Nat :=
  let c2_i32 : BitVec 32 := 2#32
  let arg0 : BitVec 32 := BitVec.ofNat 32 (i 0).val
  let c25_i32_6 : BitVec 32 := 25#32
  let v18 : BitVec 32 := Scalar.subi arg0 c25_i32_6
  let v19 : BitVec 32 := Scalar.subi c2_i32 v18
  let c400_i32 : BitVec 32 := 400#32
  let v20 : BitVec 32 := Scalar.muli v19 c400_i32
  let v21 : Index := Scalar.indexCast v20
  let c0 : Index := 0#32
  ![v21.toNat, 0]
def k0_cond3 (i : grid0.Coords) : BitVec 1 :=
  let arg0 : BitVec 32 := BitVec.ofNat 32 (i 0).val
  let c25_i32_1 : BitVec 32 := 25#32
  let v8 : BitVec 1 := Scalar.cmpi .eq arg0 c25_i32_1
  let c27_i32 : BitVec 32 := 27#32
  let v9 : BitVec 1 := Scalar.cmpi .sgt arg0 c27_i32
  let v10 : BitVec 1 := Scalar.ori v8 v9
  let v11 : BitVec 32 := Scalar.extui v10
  let c0_i32_2 : BitVec 32 := 0#32
  let v12 : BitVec 1 := Scalar.cmpi .ne v11 c0_i32_2
  v12

def cc0_transform_0 (i : grid0.Coords) : Fin 2 → Nat :=
  let arg0 : BitVec 32 := BitVec.ofNat 32 (i 0).val
  let c25_i32 : BitVec 32 := 25#32
  let v0 : BitVec 1 := Scalar.cmpi .slt arg0 c25_i32
  let c27_i32 : BitVec 32 := 27#32
  let v1 : BitVec 1 := Scalar.cmpi .sle arg0 c27_i32
  let c25_i32_0 : BitVec 32 := 25#32
  let v2 : BitVec 32 := Scalar.subi arg0 c25_i32_0
  let c1_i32 : BitVec 32 := 1#32
  let v3 : BitVec 32 := Scalar.subi v2 c1_i32
  let c2_i32 : BitVec 32 := 2#32
  let v4 : BitVec 32 := Scalar.subi v3 c2_i32
  let c24_i32 : BitVec 32 := 24#32
  let v5 : BitVec 32 := Scalar.select v1 c24_i32 v4
  let v6 : BitVec 32 := Scalar.select v0 arg0 v5
  let c0_i32 : BitVec 32 := 0#32
  let c0_i32_1 : BitVec 32 := 0#32
  ![v6.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c25_i32 : BitVec 32 := 25#32
  let v0 : BitVec 1 := Scalar.cmpi .sle arg0 c25_i32
  let c27_i32 : BitVec 32 := 27#32
  let v1 : BitVec 1 := Scalar.cmpi .sle arg0 c27_i32
  let c25_i32_0 : BitVec 32 := 25#32
  let v2 : BitVec 32 := Scalar.subi arg0 c25_i32_0
  let c24_i32 : BitVec 32 := 24#32
  let v3 : BitVec 32 := Scalar.subi c24_i32 v2
  let c25_i32_1 : BitVec 32 := 25#32
  let v4 : BitVec 32 := Scalar.subi arg0 c25_i32_1
  let c1_i32 : BitVec 32 := 1#32
  let v5 : BitVec 32 := Scalar.subi v4 c1_i32
  let c2_i32 : BitVec 32 := 2#32
  let v6 : BitVec 32 := Scalar.subi v5 c2_i32
  let v7 : BitVec 32 := Scalar.select v1 v3 v6
  let c24_i32_2 : BitVec 32 := 24#32
  let v8 : BitVec 32 := Scalar.select v0 c24_i32_2 v7
  let c0_i32 : BitVec 32 := 0#32
  let c0_i32_3 : BitVec 32 := 0#32
  ![v8.toNat, c0_i32.toNat]

abbrev stage0_0 : Fin 2 → Memref sig .tc .vmem S400x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S400x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S128_S1x128 : S128.ShapeCasts S1x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S400x128 : S1x128.Broadcasts S400x128
  h_S400x128 : 0 < S400x128.numel
  shapeCasts_S400x128_S400x128 : S400x128.ShapeCasts S400x128
  bitsLt_bf16_f32 : FTy.bits .bf16 < FTy.bits .f32
  shapeCasts_S400x10000_S400x10000 : S400x10000.ShapeCasts S400x10000
  inb_S400x128_S400x128_0_0 : ∀ a, (![0, 0] : Fin 2 → Nat) a + S400x128.size a ≤ S400x128.size a
  dot_S400x10000_S10000x128_S400x128_1_0_0_1_n_n_wf : DotDims.WF S400x10000 S10000x128 S400x128 [1] [0] [0] [1] [] []
  dot_S400x128_S128x128_S400x128_1_0_0_1_n_n_wf : DotDims.WF S400x128 S128x128 S400x128 [1] [0] [0] [1] [] []
  hrank0 : 0 < grid0.rank
  k0_off1_inb : ∀ i : grid0.Coords, ∀ (k0_h1 : k0_cond1 i = 1#1), ∀ a, (k0_off1 i) a + S400x128.size a ≤ S10000x128.size a
  k0_off2_inb : ∀ i : grid0.Coords, ∀ (k0_h2 : k0_cond2 i = 1#1), ∀ a, (k0_off2 i) a + S400x10000.size a ≤ S800x10000.size a
  k0_off2_packedbf16 : ∀ i : grid0.Coords, ∀ (k0_h2 : k0_cond2 i = 1#1), (Rect.unit (s := S800x10000) (k0_off2 i) S400x10000.size (k0_off2_inb i k0_h2)).PackedRows (EltTy.packing .bf16)
  k0_off3_inb : ∀ i : grid0.Coords, ∀ (k0_h4 : k0_cond4 i = 1#1), ∀ a, (k0_off3 i) a + S400x10000.size a ≤ S800x10000.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x10000.size a ≤ S10000x10000.size a
  hwx0_0 : ∀ i : grid0.Coords, EltTy.bits .f32 = 32 ∨ (Rect.block (s := S10000x10000) S400x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S10000x128.size a
  hwx0_1 : ∀ i : grid0.Coords, EltTy.bits .f32 = 32 ∨ (Rect.block (s := S10000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S400x128.size a ≤ S10000x128.size a
  hwx0_6 : ∀ i : grid0.Coords, EltTy.bits .f32 = 32 ∨ (Rect.block (s := S10000x128) S400x128.size (cc0_transform_6 i) (hinb0_6 i)).WholeWords (EltTy.packing .f32)

variable [Facts₀]

def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_0_0_1_n_n : DotDims S400x128 S128x128 S400x128 where
  lhsContracting := [1]
  rhsContracting := [0]
  lhsNonContracting := [0]
  rhsNonContracting := [1]
  lhsBatch := []
  rhsBatch := []
  wf := dot_S400x128_S128x128_S400x128_1_0_0_1_n_n_wf

abbrev win0_0 : Pipeline.Window sig grid0 :=
  Pipeline.Window.ofSpec (Memref.whole main_arg1) S400x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S400x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) && !(k0_cond4 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S10000x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S_, .f32⟩
  | .hbm, ⟨13, _⟩ => ⟨S10000x128, .f32⟩
  | .hbm, ⟨14, _⟩ => ⟨S10000x128, .i1⟩
  | .hbm, ⟨15, _⟩ => ⟨S_, .f32⟩
  | .hbm, ⟨16, _⟩ => ⟨S10000x128, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S1x128, .f32⟩
  | .hbm, ⟨22, _⟩ => ⟨S10000x128, .f32⟩
  | .hbm, ⟨23, _⟩ => ⟨S10000x128, .f32⟩
  | .hbm, ⟨24, _⟩ => ⟨S_, .f32⟩
  | .hbm, ⟨25, _⟩ => ⟨S_, .f32⟩
  | .hbm, ⟨26, _⟩ => ⟨S10000x128, .f32⟩
  | .hbm, ⟨27, _⟩ => ⟨S10000x128, .i1⟩
  | .hbm, ⟨28, _⟩ => ⟨S_, .f32⟩
  | .hbm, ⟨29, _⟩ => ⟨S10000x128, .f32⟩
  | .hbm, ⟨30, _⟩ => ⟨S10000x128, .f32⟩
  | .hbm, ⟨31, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v11 : Ref sig .tc := ⟨.hbm, 31, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.PointsB.lean ====
import proofs.«131862_g20117626815080_cont_8to1_815_21_alg».proof.Proof.Gen.Kernel.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points take which branch, and where their stores land

The grid has 50 points.  Points 0–24 are the first phase (one row block of the first scratch each); of these,
points 22 and 23 also copy their adjacency block into the second scratch (slots 0 and 1).  Point 25 and points
28–49 are the second phase on the point's own adjacency block; points 26 and 27 are the second phase on the
cached blocks (slots 1 and 0).  The output window is idle, and not written back, throughout the first phase. -/

theorem hcond1 : ∀ t : Fin cfg0.N, k0_cond1 (grid0.coords t) = 1#1 ↔ t.val < 25 :=
  (by decide +kernel : ∀ t : Fin grid0.N, k0_cond1 (grid0.coords t) = 1#1 ↔ t.val < 25)
theorem hcond2 : ∀ t : Fin cfg0.N, k0_cond2 (grid0.coords t) = 1#1 ↔ (22 ≤ t.val ∧ t.val ≤ 23) :=
  (by decide +kernel : ∀ t : Fin grid0.N, k0_cond2 (grid0.coords t) = 1#1 ↔ (22 ≤ t.val ∧ t.val ≤ 23))
theorem hcond3 : ∀ t : Fin cfg0.N, k0_cond3 (grid0.coords t) = 1#1 ↔ (t.val = 25 ∨ 27 < t.val) :=
  (by decide +kernel : ∀ t : Fin grid0.N, k0_cond3 (grid0.coords t) = 1#1 ↔ (t.val = 25 ∨ 27 < t.val))
theorem hcond4 : ∀ t : Fin cfg0.N, k0_cond4 (grid0.coords t) = 1#1 ↔ (25 < t.val ∧ t.val ≤ 27) :=
  (by decide +kernel : ∀ t : Fin grid0.N, k0_cond4 (grid0.coords t) = 1#1 ↔ (25 < t.val ∧ t.val ≤ 27))

/-- A first-phase point stores the rows [400 t, 400 t + 400) of the first scratch. -/
theorem hoff1 : ∀ t : Fin cfg0.N, t.val < 25 → k0_off1 (grid0.coords t) = ![400 * t.val, 0] :=
  (by decide +kernel : ∀ t : Fin grid0.N, t.val < 25 → k0_off1 (grid0.coords t) = ![400 * t.val, 0])
/-- Points 22 and 23 store slots 0 and 1 of the second scratch. -/
theorem hoff2 : ∀ t : Fin cfg0.N, 22 ≤ t.val → t.val ≤ 23 → k0_off2 (grid0.coords t) = ![400 * (t.val - 22), 0] :=
  (by decide +kernel : ∀ t : Fin grid0.N, 22 ≤ t.val → t.val ≤ 23 → k0_off2 (grid0.coords t) = ![400 * (t.val - 22), 0])
/-- Points 26 and 27 load slots 1 and 0 of the second scratch. -/
theorem hoff3 : ∀ t : Fin cfg0.N, 25 < t.val → t.val ≤ 27 → k0_off3 (grid0.coords t) = ![400 * (27 - t.val), 0] :=
  (by decide +kernel : ∀ t : Fin grid0.N, 25 < t.val → t.val ≤ 27 → k0_off3 (grid0.coords t) = ![400 * (27 - t.val), 0])

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output window is idle and not written back during the first phase, live afterwards. -/
theorem idleAt0_6 : ∀ t : Fin cfg0.N, t.val < 25 → cfg0.idle 6 (grid0.coords t) = true :=
  (by decide +kernel : ∀ t : Fin grid0.N, t.val < 25 → cfg0.idle 6 (grid0.coords t) = true)
theorem noFlush0_6 : ∀ t : Fin cfg0.N, t.val < 25 → (cfg0.win 6).flush t = false :=
  (by decide +kernel : ∀ t : Fin grid0.N, t.val < 25 → win0_6.flush t = false)
theorem liveAt0_6 : ∀ t : Fin cfg0.N, 25 ≤ t.val → cfg0.idle 6 (grid0.coords t) = false :=
  (by decide +kernel : ∀ t : Fin grid0.N, 25 ≤ t.val → cfg0.idle 6 (grid0.coords t) = false)
/-- From the second phase on every point writes its output block back. -/
theorem flush0_6 : ∀ t : Fin cfg0.N, 25 ≤ t.val → (cfg0.win 6).flush t = true :=
  (by decide +kernel : ∀ t : Fin grid0.N, 25 ≤ t.val → win0_6.flush t = true)
/-- The adjacency window's block index: the point itself in the first phase; block 24 at points 25–27; then t − 28. -/
theorem index0_0 : ∀ t : Fin cfg0.N, win0_0.index t (0 : Fin 2) = (if t.val < 25 then t.val else if t.val ≤ 27 then 24 else t.val - 28) ∧ win0_0.index t (1 : Fin 2) = 0 :=
  (by decide +kernel : ∀ t : Fin grid0.N, win0_0.index t (0 : Fin 2) = (if t.val < 25 then t.val else if t.val ≤ 27 then 24 else t.val - 28) ∧ win0_0.index t (1 : Fin 2) = 0)
/-- The output window's block index: 24 up to point 25, 23 and 22 at points 26 and 27, then t − 28. -/
theorem index0_6 : ∀ t : Fin cfg0.N, win0_6.index t (0 : Fin 2) = (if t.val ≤ 25 then 24 else if t.val ≤ 27 then 50 - t.val - 1 else t.val - 28) ∧ win0_6.index t (1 : Fin 2) = 0 :=
  (by decide +kernel : ∀ t : Fin grid0.N, win0_6.index t (0 : Fin 2) = (if t.val ≤ 25 then 24 else if t.val ≤ 27 then 50 - t.val - 1 else t.val - 28) ∧ win0_6.index t (1 : Fin 2) = 0)

end Cert.Kernel.Gen

end
-- ==== Proof.LibRows.lean ====
/-
  A rank-2 buffer after ONE store of whole rows, read index by index.

  A store through the unit-stride rectangle of rows [o, o + R) and every column replaces exactly those rows by
  the stored block and leaves every other row as it was.  `RowsSet o P D D'` says this of the contents read
  before (`D`) and after (`D'`); `rowsSet_of_writes` proves it of one listed write, and `ld_rows` reads a load
  through such a rectangle as the rows it names.
-/
import Idealize.ShloMosaic.Lib.WritesUnit
import Idealize.ShloMosaic.Lib.Pipeline.FrameBody
import Idealize.ShloMosaic.Lib.Pipeline.Value

namespace Idealize.ShloMosaic

/-- `D'` is `D` with the rows [o, o + sz 0) replaced by the block `P` (row `o + r` of `D'` is row `r` of `P`). -/
def RowsSet {d sz : Fin 2 → ℕ} {α : Type} (o : ℕ) (P : (⟨2, sz⟩ : Shape).Idx → α)
    (D D' : (⟨2, d⟩ : Shape).Idx → α) : Prop :=
  (∀ (y : (⟨2, sz⟩ : Shape).Idx) (z : (⟨2, d⟩ : Shape).Idx),
      (z (0 : Fin 2)).val = o + (y (0 : Fin 2)).val → (z (1 : Fin 2)).val = (y (1 : Fin 2)).val → D' z = P y)
  ∧ (∀ z : (⟨2, d⟩ : Shape).Idx, ((z (0 : Fin 2)).val < o ∨ o + sz (0 : Fin 2) ≤ (z (0 : Fin 2)).val) → D' z = D z)

namespace View

variable {sig : RefSig} {κ : Kind} {sp : Space} {e : EltTy} {Val : EltTy → Type}

/-- One listed store of the rows [o, o + size 0) over contents `f`: the rows are the payload, the rest is `f`. -/
theorem rowsSet_of_writes {d : Fin 2 → ℕ} (v : View sig κ sp (⟨2, d⟩ : Shape) e) (f : v.ty.Contents Val)
    {off size : Fin 2 → ℕ} {o : ℕ} (inb : ∀ a : Fin 2, off a + size a ≤ d a)
    (w : (Rect.unit (s := ⟨2, d⟩) off size inb).shape.Idx → Val e) (hoff : off = ![o, 0]) :
    RowsSet (sz := size) o w (v.read Val f)
      (v.read Val (v.writes Val f [(⟨Rect.unit (s := ⟨2, d⟩) off size inb, w⟩ : Piece Val (⟨2, d⟩ : Shape) e)])) :=
  ⟨fun y z h0 h1 => read_writes_cons_rows_of_mem v f inb w [] z y hoff h0 h1,
   fun z h => (read_writes_cons_rows_of_not_mem v f inb w [] z hoff rfl h).trans (by rw [writes_nil])⟩

/-- A load of the rows [o, o + size 0) of contents `X`, read at a position: row `o + r`, the same column. -/
theorem ld_unit_rows {d : Fin 2 → ℕ} (X : (⟨2, d⟩ : Shape).Idx → Val e) {off size : Fin 2 → ℕ} {o : ℕ}
    (inb : ∀ a : Fin 2, off a + size a ≤ d a) (hoff : off = ![o, 0])
    (y : (Rect.unit (s := ⟨2, d⟩) off size inb).shape.Idx) (z : (⟨2, d⟩ : Shape).Idx)
    (h0 : (z (0 : Fin 2)).val = o + (y (0 : Fin 2)).val) (h1 : (z (1 : Fin 2)).val = (y (1 : Fin 2)).val) :
    View.ld X (Rect.unit (s := ⟨2, d⟩) off size inb) y = X z := by
  subst hoff
  refine congrArg X (funext fun a => Fin.ext ?_)
  show (![o, 0] : Fin 2 → ℕ) a + 1 * (y a).val = (z a).val
  rw [Nat.one_mul]
  revert a
  exact Fin.forall_fin_two.mpr ⟨h0.symm, by rw [h1]; exact Nat.zero_add _⟩

end View

/-- The offsets of a rank-2 rectangle at the origin, however the zeros are spelt. -/
theorem zero2 : (![0, 0] : Fin 2 → ℕ) = fun _ => 0 := by
  funext a; match a with | ⟨0, _⟩ => rfl | ⟨1, _⟩ => rfl

namespace Memref.IsWhole

variable {sig : RefSig} {κ : Kind} {sp : Space} {s : Shape} {e : EltTy} {Val : EltTy → Type} {m : Memref sig κ sp s e}

/-- A load of a whole buffer through the whole-shape rectangle at the origin reads what the buffer holds. -/
theorem readAt_unread_zero (h : m.IsWhole) (X : s.Idx → Val e) {off : Fin s.rank → Nat} (hz : off = fun _ => 0)
    (inb : ∀ a, off a + s.size a ≤ s.size a) :
    m.view.readAt Val (Rect.unit off s.size inb).toLoadRect (h.unread X) = X := by
  rw [View.readAt_eq_ld, h.read_unread, View.ld_unit_zero hz]

/-- A load of a whole buffer through any rectangle is the load of what the buffer holds. -/
theorem readAt_unread (h : m.IsWhole) (X : s.Idx → Val e) (r : Rect s) :
    m.view.readAt Val r.toLoadRect (h.unread X) = View.ld X r := by
  rw [View.readAt_eq_ld, h.read_unread]

end Memref.IsWhole

end Idealize.ShloMosaic
-- ==== Proof.RunFirstB.lean ====
import proofs.«131862_g20117626815080_cont_8to1_815_21_alg».proof.Proof.Gen.Kernel.Skeleton
import proofs.«131862_g20117626815080_cont_8to1_815_21_alg».proof.Proof.LibRows
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of the first phase that caches nothing: it reads the adjacency block and the four
    parameter buffers, and replaces the rows [o, o + 400) of the first scratch by the block's payload. -/
theorem run_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S800x10000 .bf16) (harg9 : arg9.IsWhole)
    (hc1 : k0_cond1 i = 1#1) (hc2 : ¬ k0_cond2 i = 1#1) (hc3 : ¬ k0_cond3 i = 1#1) (hc4 : ¬ k0_cond4 i = 1#1)
    (o : ℕ) (ho : k0_off1 i = ![o, 0])
    (x0 : Vec F S400x10000 .f32) (x1 : Vec F S10000x128 .f32) (x2 : Vec F S128x128 .f32) (x3 : Vec F S1x128 .f32) (x4 : Vec F S128x128 .f32)
    (d8 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare d8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d8' : Vec F S10000x128 .f32, owns (c : Thread nD τ) arg8 fullShare d8' ∗ ⌜RowsSet (sz := S400x128.size) o (k0_pay1 x0 x1 x2 x3 x4) d8 d8'⌝)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%fH0, %hfH0, H0⟩, ⟨%fH1, %hfH1, H1⟩, ⟨%fH2, %hfH2, H2⟩, ⟨%fH3, %hfH3, H3⟩, ⟨%fH4, %hfH4, H4⟩, ⟨%fH8, %hfH8, H8⟩, Hk⟩
  obtain rfl := harg1.eq_unread hfH0
  obtain rfl := harg2.eq_unread hfH1
  obtain rfl := harg3.eq_unread hfH2
  obtain rfl := harg4.eq_unread hfH3
  obtain rfl := harg5.eq_unread hfH4
  obtain rfl := harg8.eq_unread hfH8
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _
  isplitl [H8]
  · iexists _; isplitr
    swap; · iexact H8
    ipureintro; rfl
  ipureintro
  rw [harg1.readAt_unread_zero x0 zero2, harg2.readAt_unread_zero x1 zero2, harg3.readAt_unread_zero x2 zero2,
    harg4.readAt_unread_zero x3 zero2, harg5.readAt_unread_zero x4 zero2]
  have h := View.rowsSet_of_writes (Val := Elt F) arg8.view (harg8.unread d8) (k0_off1_inb i hc1) (k0_pay1 x0 x1 x2 x3 x4) ho
  rw [harg8.read_unread] at h
  exact h

end Cert.Kernel.Gen

end
-- ==== Proof.RunCacheB.lean ====
import proofs.«131862_g20117626815080_cont_8to1_815_21_alg».proof.Proof.Gen.Kernel.Skeleton
import proofs.«131862_g20117626815080_cont_8to1_815_21_alg».proof.Proof.LibRows
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of the first phase that also caches its adjacency block: besides the rows [o, o + 400) of
    the first scratch it replaces the rows [o', o' + 400) of the second by the block itself (its payload). -/
theorem run_cache (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S800x10000 .bf16) (harg9 : arg9.IsWhole)
    (hc1 : k0_cond1 i = 1#1) (hc2 : k0_cond2 i = 1#1) (hc3 : ¬ k0_cond3 i = 1#1) (hc4 : ¬ k0_cond4 i = 1#1)
    (o o' : ℕ) (ho : k0_off1 i = ![o, 0]) (ho' : k0_off2 i = ![o', 0])
    (x0 : Vec F S400x10000 .f32) (x1 : Vec F S10000x128 .f32) (x2 : Vec F S128x128 .f32) (x3 : Vec F S1x128 .f32) (x4 : Vec F S128x128 .f32)
    (d8 : Vec F S10000x128 .f32) (d9 : Vec F S800x10000 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare d8 ∗ owns (c : Thread nD τ) arg9 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d8' : Vec F S10000x128 .f32, owns (c : Thread nD τ) arg8 fullShare d8' ∗ ⌜RowsSet (sz := S400x128.size) o (k0_pay1 x0 x1 x2 x3 x4) d8 d8'⌝)
            ∗ (∃ d9' : Vec F S800x10000 .bf16, owns (c : Thread nD τ) arg9 fullShare d9' ∗ ⌜RowsSet (sz := S400x10000.size) o' (k0_pay2 x0) d9 d9'⌝)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%fH0, %hfH0, H0⟩, ⟨%fH1, %hfH1, H1⟩, ⟨%fH2, %hfH2, H2⟩, ⟨%fH3, %hfH3, H3⟩, ⟨%fH4, %hfH4, H4⟩, ⟨%fH8, %hfH8, H8⟩, ⟨%fH9, %hfH9, H9⟩, Hk⟩
  obtain rfl := harg1.eq_unread hfH0
  obtain rfl := harg2.eq_unread hfH1
  obtain rfl := harg3.eq_unread hfH2
  obtain rfl := harg4.eq_unread hfH3
  obtain rfl := harg5.eq_unread hfH4
  obtain rfl := harg8.eq_unread hfH8
  obtain rfl := harg9.eq_unread hfH9
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H8]
  · iexists _
    isplitl [H8]
    · iexists _; isplitr
      swap; · iexact H8
      ipureintro; rfl
    ipureintro
    rw [harg1.readAt_unread_zero x0 zero2, harg2.readAt_unread_zero x1 zero2, harg3.readAt_unread_zero x2 zero2,
    harg4.readAt_unread_zero x3 zero2, harg5.readAt_unread_zero x4 zero2]
    have h := View.rowsSet_of_writes (Val := Elt F) arg8.view (harg8.unread d8) (k0_off1_inb i hc1) (k0_pay1 x0 x1 x2 x3 x4) ho
    rw [harg8.read_unread] at h
    exact h
  iexists _
  isplitl [H9]
  · iexists _; isplitr
    swap; · iexact H9
    ipureintro; rfl
  ipureintro
  rw [harg1.readAt_unread_zero x0 zero2]
  have h := View.rowsSet_of_writes (Val := Elt F) arg9.view (harg9.unread d9) (k0_off2_inb i hc2) (k0_pay2 x0) ho'
  rw [harg9.read_unread] at h
  exact h

end Cert.Kernel.Gen

end
-- ==== Proof.RunSecondB.lean ====
import proofs.«131862_g20117626815080_cont_8to1_815_21_alg».proof.Proof.Gen.Kernel.Skeleton
import proofs.«131862_g20117626815080_cont_8to1_815_21_alg».proof.Proof.LibRows
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of the second phase that multiplies its own adjacency block: it reads the block, the
    whole first scratch and the bias row, and leaves the payload in the output's buffer. -/
theorem run_second (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S800x10000 .bf16) (harg9 : arg9.IsWhole)
    (hc1 : ¬ k0_cond1 i = 1#1) (hc2 : ¬ k0_cond2 i = 1#1) (hc3 : k0_cond3 i = 1#1) (hc4 : ¬ k0_cond4 i = 1#1)
    (x0 : Vec F S400x10000 .f32) (x5 : Vec F S1x128 .f32) (d8 : Vec F S10000x128 .f32) (d7 : Vec F S400x128 .f32)
    (E : Set ℕ) (K : PUnit → sProp 𝕄) :
    iprop(owns (c : Thread nD τ) arg1 fullShare x0 ∗ owns (c : Thread nD τ) arg6 fullShare x5 ∗ owns (c : Thread nD τ) arg8 fullShare d8 ∗ owns (c : Thread nD τ) arg7 fullShare d7
        ∗ (iprop(owns (c : Thread nD τ) arg1 fullShare x0 ∗ owns (c : Thread nD τ) arg6 fullShare x5 ∗ owns (c : Thread nD τ) arg8 fullShare d8 ∗ owns (c : Thread nD τ) arg7 fullShare (k0_pay3 x0 d8 x5)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%fH0, %hfH0, H0⟩, ⟨%fH5, %hfH5, H5⟩, ⟨%fH8, %hfH8, H8⟩, ⟨%fH7, %hfH7, H7⟩, Hk⟩
  obtain rfl := harg1.eq_unread hfH0
  obtain rfl := harg6.eq_unread hfH5
  obtain rfl := harg8.eq_unread hfH8
  obtain rfl := harg7.eq_unread hfH7
  sl_exec (disch := first | exact hc1 | exact hc2 | exact hc3 | exact hc4)
  sl_step
  iapply Hk
  isplitl [H0]
  · iexists _; isplitr; · ipureintro; exact harg1.read_unread _
    iexact H0
  isplitl [H5]
  · iexists _; isplitr; · ipureintro; exact harg6.read_unread _
    iexact H5
  isplitl [H8]
  · iexists _; isplitr; · ipureintro; exact harg8.read_unread _
    iexact H8
  iexists _; isplitr
  swap; · iexact H7
  ipureintro
  rw [harg1.readAt_unread_zero x0 zero2, harg8.readAt_unread_zero d8 zero2, harg6.readAt_unread_zero x5 zero2]
  funext z
  exact (View.rowsSet_of_writes (Val := Elt F) (o := 0) arg7.view (harg7.unread d7) inb_S400x128_S400x128_0_0 (k0_pay3 x0 d8 x5) rfl).1 z z
    (Nat.zero_add _).symm rfl

end Cert.Kernel.Gen

end
-- ==== Proof.RunCachedB.lean ====
import proofs.«131862_g20117626815080_cont_8to1_815_21_alg».proof.Proof.Gen.Kernel.Skeleton
import proofs.«131862_g20117626815080_cont_8to1_815_21_alg».proof.Proof.LibRows
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of the second phase that multiplies a cached block: it reads the rows of the second
    scratch the point names, the whole first scratch and the bias row, and leaves the payload in the output's buffer. -/
theorem run_cached (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S800x10000 .bf16) (harg9 : arg9.IsWhole)
    (hc1 : ¬ k0_cond1 i = 1#1) (hc2 : ¬ k0_cond2 i = 1#1) (hc3 : ¬ k0_cond3 i = 1#1) (hc4 : k0_cond4 i = 1#1)
    (x5 : Vec F S1x128 .f32) (d8 : Vec F S10000x128 .f32) (d9 : Vec F S800x10000 .bf16) (d7 : Vec F S400x128 .f32)
    (E : Set ℕ) (K : PUnit → sProp 𝕄) :
    iprop(owns (c : Thread nD τ) arg6 fullShare x5 ∗ owns (c : Thread nD τ) arg8 fullShare d8 ∗ owns (c : Thread nD τ) arg9 fullShare d9 ∗ owns (c : Thread nD τ) arg7 fullShare d7
        ∗ (iprop(owns (c : Thread nD τ) arg6 fullShare x5 ∗ owns (c : Thread nD τ) arg8 fullShare d8 ∗ owns (c : Thread nD τ) arg9 fullShare d9
            ∗ owns (c : Thread nD τ) arg7 fullShare (k0_pay4 (View.ld d9 (Rect.unit (s := S800x10000) (k0_off3 i) S400x10000.size (k0_off3_inb i hc4))) d8 x5)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%fH5, %hfH5, H5⟩, ⟨%fH8, %hfH8, H8⟩, ⟨%fH9, %hfH9, H9⟩, ⟨%fH7, %hfH7, H7⟩, Hk⟩
  obtain rfl := harg6.eq_unread hfH5
  obtain rfl := harg8.eq_unread hfH8
  obtain rfl := harg9.eq_unread hfH9
  obtain rfl := harg7.eq_unread hfH7
  sl_exec (disch := first | exact hc1 | exact hc2 | exact hc3 | exact hc4)
  sl_step
  iapply Hk
  isplitl [H5]
  · iexists _; isplitr; · ipureintro; exact harg6.read_unread _
    iexact H5
  isplitl [H8]
  · iexists _; isplitr; · ipureintro; exact harg8.read_unread _
    iexact H8
  isplitl [H9]
  · iexists _; isplitr; · ipureintro; exact harg9.read_unread _
    iexact H9
  iexists _; isplitr
  swap; · iexact H7
  ipureintro
  rw [harg9.readAt_unread d9, harg8.readAt_unread_zero d8 zero2, harg6.readAt_unread_zero x5 zero2]
  funext z
  exact (View.rowsSet_of_writes (Val := Elt F) (o := 0) arg7.view (harg7.unread d7) inb_S400x128_S400x128_0_0
    (k0_pay4 (View.ld d9 (Rect.unit (s := S800x10000) (k0_off3 i) S400x10000.size (k0_off3_inb i hc4))) d8 x5) rfl).1 z z
    (Nat.zero_add _).symm rfl

end Cert.Kernel.Gen

end
-- ==== Proof.BodyDefsB.lean ====
import proofs.«131862_g20117626815080_cont_8to1_815_21_alg».proof.Proof.PointsB
import proofs.«131862_g20117626815080_cont_8to1_815_21_alg».proof.Proof.RunFirstB
import proofs.«131862_g20117626815080_cont_8to1_815_21_alg».proof.Proof.RunCacheB
import proofs.«131862_g20117626815080_cont_8to1_815_21_alg».proof.Proof.RunSecondB
import proofs.«131862_g20117626815080_cont_8to1_815_21_alg».proof.Proof.RunCachedB
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called with -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x128 .f32 := win0_6.stage (cfg0.slots t 6)
abbrev hs0_6 (t : Fin cfg0.N) : (ms0_6 t).IsWhole := hstage0_6 ((cfg0.slots t 6).cast nbuf0_6)
/-- The two scratch operands: whole scoped buffers of the kernel's own. -/
abbrev scM0 : Memref sig .tc .vmem S10000x128 .f32 := Memref.whole cc0_scratch0
abbrev scM1 : Memref sig .tc .vmem S800x10000 .bf16 := Memref.whole cc0_scratch1

/-- The region's invariant as the launch hands it over: both scratch buffers at some contents, the generator
    register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the scratch buffers and the output hold, point by point -/

/-- Point number `k` of the grid. -/
def pt (k : ℕ) (h : k < 50) : Fin cfg0.N := ⟨k, lt_of_lt_of_eq h (show cfg0.N = 50 from N_0).symm⟩

/-- The input blocks at a point: the adjacency block, and the whole of x, W1, the bias row b1, W2, the bias row b2. -/
abbrev X0 (c : Dev nD) (t : Fin cfg0.N) : Vec F S400x10000 .f32 := iblk m c 0 t
abbrev X1 (c : Dev nD) (t : Fin cfg0.N) : Vec F S10000x128 .f32 := iblk m c 1 t
abbrev X2 (c : Dev nD) (t : Fin cfg0.N) : Vec F S128x128 .f32 := iblk m c 2 t
abbrev X3 (c : Dev nD) (t : Fin cfg0.N) : Vec F S1x128 .f32 := iblk m c 3 t
abbrev X4 (c : Dev nD) (t : Fin cfg0.N) : Vec F S128x128 .f32 := iblk m c 4 t
abbrev X5 (c : Dev nD) (t : Fin cfg0.N) : Vec F S1x128 .f32 := iblk m c 5 t

/-- What the first phase leaves in row block `j` of the first scratch: the payload of point `j`'s inputs. -/
def blk8 (c : Dev nD) (j : ℕ) (hj : j < 25) : Vec F S400x128 .f32 :=
  k0_pay1 (X0 m c (pt j (by omega))) (X1 m c (pt j (by omega))) (X2 m c (pt j (by omega))) (X3 m c (pt j (by omega))) (X4 m c (pt j (by omega)))

/-- What points 22 and 23 leave in slot `s` of the second scratch: the payload of point `22 + s`'s adjacency block. -/
def blk9 (c : Dev nD) (s : ℕ) (hs : s < 2) : Vec F S400x10000 .bf16 :=
  k0_pay2 (X0 m c (pt (22 + s) (by omega)))

/-- Before point `n`: the row blocks of the first scratch written by the points below `n` hold their payloads, and so
    do the slots of the second scratch written by the points 22, 23 below `n`. -/
def Inv (c : Dev nD) (n : ℕ) (d8 : Vec F S10000x128 .f32) (d9 : Vec F S800x10000 .bf16) : Prop :=
  (∀ (j : ℕ) (hj : j < 25), j < n → ∀ (y : S400x128.Idx) (z : S10000x128.Idx),
      (z (0 : Fin 2)).val = 400 * j + (y (0 : Fin 2)).val → (z (1 : Fin 2)).val = (y (1 : Fin 2)).val → d8 z = blk8 m c j hj y)
  ∧ (∀ (s : ℕ) (hs : s < 2), 22 + s < n → ∀ (y : S400x10000.Idx) (z : S800x10000.Idx),
      (z (0 : Fin 2)).val = 400 * s + (y (0 : Fin 2)).val → (z (1 : Fin 2)).val = (y (1 : Fin 2)).val → d9 z = blk9 m c s hs y)

/-- The first scratch once the first phase is over, as one function of the index. -/
def H8 (c : Dev nD) : Vec F S10000x128 .f32 := fun z =>
  blk8 m c ((z (0 : Fin 2)).val / 400) (by have := ValueIdx.idx2_lt0 z; omega)
    (ValueIdx.ix2 ⟨(z (0 : Fin 2)).val % 400, Nat.mod_lt _ (by omega)⟩ ⟨(z (1 : Fin 2)).val, ValueIdx.idx2_lt1 z⟩)

theorem d8_eq_H8 (c : Dev nD) (n : ℕ) (hn : 25 ≤ n) (d8 : Vec F S10000x128 .f32) (d9 : Vec F S800x10000 .bf16)
    (h : Inv m c n d8 d9) : d8 = H8 m c := by
  funext z
  have hz := ValueIdx.idx2_lt0 z
  exact h.1 ((z (0 : Fin 2)).val / 400) (by omega) (by omega)
    (ValueIdx.ix2 ⟨(z (0 : Fin 2)).val % 400, Nat.mod_lt _ (by omega)⟩ ⟨(z (1 : Fin 2)).val, ValueIdx.idx2_lt1 z⟩) z
    (Nat.div_add_mod _ _).symm rfl

/-- What the second phase leaves in the output's buffer at point `t`: at points 26 and 27 the payload of the cached
    block (slot 27 − t), elsewhere the payload of the point's own adjacency block; both over the whole first scratch. -/
def out6 (c : Dev nD) (t : Fin cfg0.N) : Vec F S400x128 .f32 :=
  if h : 25 < t.val ∧ t.val ≤ 27 then k0_pay4 (blk9 m c (27 - t.val) (by omega)) (H8 m c) (X5 m c t)
  else k0_pay3 (X0 m c t) (H8 m c) (X5 m c t)

/-- The invariant before point `n`. -/
def PhiS (c : Dev nD) (n : ℕ) : sProp 𝕄 :=
  iprop(∃ (d8 : Vec F S10000x128 .f32) (d9 : Vec F S800x10000 .bf16),
    owns (c : Thread nD τ) scM0 fullShare d8 ∗ owns (c : Thread nD τ) scM1 fullShare d9 ∗ ⌜Inv m c n d8 d9⌝ ∗ (∃ r, prngReg c r))

/-! ## How the invariant moves -/

theorem inv_first (c : Dev nD) (t : Fin cfg0.N) (ht : t.val < 22 ∨ t.val = 24) (d8 d8' : Vec F S10000x128 .f32) (d9 : Vec F S800x10000 .bf16)
    (h : Inv m c t.val d8 d9) (hu : RowsSet (sz := S400x128.size) (400 * t.val) (blk8 m c t.val (by omega)) d8 d8') :
    Inv m c (t.val + 1) d8' d9 := by
  refine ⟨fun j hj hlt y z h0 h1 => ?_, fun s hs hlt y z h0 h1 => h.2 s hs (by omega) y z h0 h1⟩
  by_cases hjt : j = t.val
  · subst hjt; exact hu.1 y z h0 h1
  · have hy := ValueIdx.idx2_lt0 y
    rw [hu.2 z (Or.inl (by omega))]
    exact h.1 j hj (by omega) y z h0 h1

theorem inv_cache (c : Dev nD) (t : Fin cfg0.N) (ht : 22 ≤ t.val ∧ t.val ≤ 23) (d8 d8' : Vec F S10000x128 .f32) (d9 d9' : Vec F S800x10000 .bf16)
    (h : Inv m c t.val d8 d9) (hu : RowsSet (sz := S400x128.size) (400 * t.val) (blk8 m c t.val (by omega)) d8 d8')
    (hu' : RowsSet (sz := S400x10000.size) (400 * (t.val - 22)) (blk9 m c (t.val - 22) (by omega)) d9 d9') :
    Inv m c (t.val + 1) d8' d9' := by
  refine ⟨fun j hj hlt y z h0 h1 => ?_, fun s hs hlt y z h0 h1 => ?_⟩
  · by_cases hjt : j = t.val
    · subst hjt; exact hu.1 y z h0 h1
    · have hy := ValueIdx.idx2_lt0 y
      rw [hu.2 z (Or.inl (by omega))]
      exact h.1 j hj (by omega) y z h0 h1
  · by_cases hst : s = t.val - 22
    · subst hst; exact hu'.1 y z h0 h1
    · have hy := ValueIdx.idx2_lt0 y
      rw [hu'.2 z (Or.inl (by omega))]
      exact h.2 s hs (by omega) y z h0 h1

theorem inv_keep (c : Dev nD) (n : ℕ) (hn : 25 ≤ n) (d8 : Vec F S10000x128 .f32) (d9 : Vec F S800x10000 .bf16)
    (h : Inv m c n d8 d9) : Inv m c (n + 1) d8 d9 :=
  ⟨fun j hj _ y z h0 h1 => h.1 j hj (by omega) y z h0 h1, fun s hs _ y z h0 h1 => h.2 s hs (by omega) y z h0 h1⟩

/-- The rows of the second scratch a cached point loads are the block cached there. -/
theorem ld_cache (c : Dev nD) (t : Fin cfg0.N) (ht : 25 < t.val ∧ t.val ≤ 27) (d8 : Vec F S10000x128 .f32) (d9 : Vec F S800x10000 .bf16)
    (h : Inv m c t.val d8 d9) (inb : ∀ a : Fin 2, k0_off3 (grid0.coords t) a + S400x10000.size a ≤ S800x10000.size a) :
    View.ld d9 (Rect.unit (s := S800x10000) (k0_off3 (grid0.coords t)) S400x10000.size inb) = blk9 m c (27 - t.val) (by omega) := by
  funext y
  have hy := ValueIdx.idx2_lt0 y
  let z : S800x10000.Idx := ValueIdx.ix2 ⟨400 * (27 - t.val) + (y (0 : Fin 2)).val, by omega⟩ ⟨(y (1 : Fin 2)).val, ValueIdx.idx2_lt1 y⟩
  exact (View.ld_unit_rows d9 inb (hoff3 t ht.1 ht.2) y z rfl rfl).trans (h.2 (27 - t.val) (by omega) (by omega) y z rfl rfl)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the obligation asks back of an input window's buffer: its block. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
/-- Of the output's buffer: untouched in the first phase, the point's payload in the second. -/
theorem leaves0_6_idle (c : Dev nD) (t : Fin cfg0.N) (ht : t.val < 25) :
    (dats m 0 c).leavesExact 6 t = iprop(∃ d, owns (c : Thread nD τ) (ms0_6 t) fullShare ((dats m 0 c).before 6 t d)) :=
  Dat.leavesExact_idle (dats m 0 c) 6 t (idleAt0_6 t ht) (noFlush0_6 t ht)
theorem leaves0_6_live (c : Dev nD) (t : Fin cfg0.N) (ht : 25 ≤ t.val) :
    (dats m 0 c).leavesExact 6 t = owns (c : Thread nD τ) (ms0_6 t) fullShare (out6 m c t) := by
  unfold Dat.leavesExact; rw [liveAt0_6 t ht, after0_6]

end Cert.Kernel.Gen

end
-- ==== Proof.BodyB.lean ====
import proofs.«131862_g20117626815080_cont_8to1_815_21_alg».proof.Proof.BodyDefsB
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point.  The input buffers hold their blocks; the closed forms say which branches the point
    takes; the case's run applies; the invariant hands over the two scratch buffers at contents satisfying `Inv` and
    takes them back at contents satisfying it one point later (a first-phase point replaces its own rows; a
    second-phase point only reads, and what it reads is the whole first phase's result). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rewrite [show (dats m 0 c).owesAt () t.succ = (dats m 0 c).owesAt () t.castSucc from rfl]
  rewrite [Phi_succ, Phi_castSucc, leaves0_0, leaves0_1, leaves0_2, leaves0_3, leaves0_4, leaves0_5]
  have hN : t.val < 50 := lt_of_lt_of_eq t.isLt (show cfg0.N = 50 from N_0)
  have hpt : pt t.val hN = t := Fin.ext rfl
  by_cases hA : t.val < 22 ∨ t.val = 24
  · -- the first phase, nothing cached
    have h25 : t.val < 25 := by omega
    rewrite [leaves0_6_idle m c t h25]
    unfold PhiS
    iintro ⟨⟨%d8, %d9, HS8, HS9, %hinv, Hg⟩, Ho, ⟨%e0, H0⟩, ⟨%e1, H1⟩, ⟨%e2, H2⟩, ⟨%e3, H3⟩, ⟨%e4, H4⟩, ⟨%e5, H5⟩, H6⟩
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
      ((hcond1 t).mpr h25) (fun h => by have := (hcond2 t).mp h; omega) (fun h => by have := (hcond3 t).mp h; omega) (fun h => by have := (hcond4 t).mp h; omega)
      (400 * t.val) (hoff1 t h25) (iblk m c 0 t) (iblk m c 1 t) (iblk m c 2 t) (iblk m c 3 t) (iblk m c 4 t) d8 Set.univ _)
    isplitl [H0]; · iexact H0
    isplitl [H1]; · iexact H1
    isplitl [H2]; · iexact H2
    isplitl [H3]; · iexact H3
    isplitl [H4]; · iexact H4
    isplitl [HS8]; · iexact HS8
    iintro ⟨H0, H1, H2, H3, H4, ⟨%d8', HS8, %hupd⟩⟩
    isplitl [HS8 HS9 Hg]
    · iexists d8', d9
      isplitl [HS8]; · iexact HS8
      isplitl [HS9]; · iexact HS9
      isplitr
      · ipureintro
        refine inv_first m c t hA d8 d8' d9 hinv ?_
        unfold blk8; rw [hpt]; exact hupd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  by_cases hB : 22 ≤ t.val ∧ t.val ≤ 23
  · -- the first phase, the block cached
    have h25 : t.val < 25 := by omega
    rewrite [leaves0_6_idle m c t h25]
    unfold PhiS
    iintro ⟨⟨%d8, %d9, HS8, HS9, %hinv, Hg⟩, Ho, ⟨%e0, H0⟩, ⟨%e1, H1⟩, ⟨%e2, H2⟩, ⟨%e3, H3⟩, ⟨%e4, H4⟩, ⟨%e5, H5⟩, H6⟩
    iapply (run_cache c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
      ((hcond1 t).mpr h25) ((hcond2 t).mpr hB) (fun h => by have := (hcond3 t).mp h; omega) (fun h => by have := (hcond4 t).mp h; omega)
      (400 * t.val) (400 * (t.val - 22)) (hoff1 t h25) (hoff2 t hB.1 hB.2) (iblk m c 0 t) (iblk m c 1 t) (iblk m c 2 t) (iblk m c 3 t) (iblk m c 4 t) d8 d9 Set.univ _)
    isplitl [H0]; · iexact H0
    isplitl [H1]; · iexact H1
    isplitl [H2]; · iexact H2
    isplitl [H3]; · iexact H3
    isplitl [H4]; · iexact H4
    isplitl [HS8]; · iexact HS8
    isplitl [HS9]; · iexact HS9
    iintro ⟨H0, H1, H2, H3, H4, ⟨%d8', HS8, %hupd⟩, ⟨%d9', HS9, %hupd'⟩⟩
    isplitl [HS8 HS9 Hg]
    · iexists d8', d9'
      isplitl [HS8]; · iexact HS8
      isplitl [HS9]; · iexact HS9
      isplitr
      · ipureintro
        have h22 : 22 + (t.val - 22) = t.val := by omega
        have hpt' : pt (22 + (t.val - 22)) (by omega) = t := Fin.ext h22
        refine inv_cache m c t hB d8 d8' d9 d9' hinv ?_ ?_
        · unfold blk8; rw [hpt]; exact hupd
        · unfold blk9; rw [hpt']; exact hupd'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  have h25 : 25 ≤ t.val := by omega
  rewrite [leaves0_6_live m c t h25]
  by_cases hE : 25 < t.val ∧ t.val ≤ 27
  · -- the second phase on a cached block
    unfold PhiS
    iintro ⟨⟨%d8, %d9, HS8, HS9, %hinv, Hg⟩, Ho, ⟨%e0, H0⟩, ⟨%e1, H1⟩, ⟨%e2, H2⟩, ⟨%e3, H3⟩, ⟨%e4, H4⟩, ⟨%e5, H5⟩, ⟨%e6, H6⟩⟩
    have hd8 := d8_eq_H8 m c t.val h25 d8 d9 hinv
    iapply (run_cached c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
      (fun h => by have := (hcond1 t).mp h; omega) (fun h => by have := (hcond2 t).mp h; omega) (fun h => by have := (hcond3 t).mp h; omega) ((hcond4 t).mpr hE)
      (iblk m c 5 t) d8 d9 _ Set.univ _)
    isplitl [H5]; · iexact H5
    isplitl [HS8]; · iexact HS8
    isplitl [HS9]; · iexact HS9
    isplitl [H6]; · iexact H6
    iintro ⟨H5, HS8, HS9, H6⟩
    isplitl [HS8 HS9 Hg]
    · iexists d8, d9
      isplitl [HS8]; · iexact HS8
      isplitl [HS9]; · iexact HS9
      isplitr
      · ipureintro; exact inv_keep m c t.val h25 d8 d9 hinv
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rewrite [ld_cache m c t hE d8 d9 hinv, hd8]
    unfold out6; rewrite [dif_pos hE]
    iexact H6
  · -- the second phase on the point's own block
    unfold PhiS
    iintro ⟨⟨%d8, %d9, HS8, HS9, %hinv, Hg⟩, Ho, ⟨%e0, H0⟩, ⟨%e1, H1⟩, ⟨%e2, H2⟩, ⟨%e3, H3⟩, ⟨%e4, H4⟩, ⟨%e5, H5⟩, ⟨%e6, H6⟩⟩
    have hd8 := d8_eq_H8 m c t.val h25 d8 d9 hinv
    iapply (run_second c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
      (fun h => by have := (hcond1 t).mp h; omega) (fun h => by have := (hcond2 t).mp h; omega) ((hcond3 t).mpr (by omega)) (fun h => by have := (hcond4 t).mp h; omega)
      (iblk m c 0 t) (iblk m c 5 t) d8 _ Set.univ _)
    isplitl [H0]; · iexact H0
    isplitl [H5]; · iexact H5
    isplitl [HS8]; · iexact HS8
    isplitl [H6]; · iexact H6
    iintro ⟨H0, H5, HS8, H6⟩
    isplitl [HS8 HS9 Hg]
    · iexists d8, d9
      isplitl [HS8]; · iexact HS8
      isplitl [HS9]; · iexact HS9
      isplitr
      · ipureintro; exact inv_keep m c t.val h25 d8 d9 hinv
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rewrite [hd8]
    unfold out6; rewrite [dif_neg hE]
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no block written yet. -/
theorem hin (c : Dev nD) : Pipeline.ΦA spec0 c ⊢ (dats m 0 c).Φ 0 := by
  rewrite [show (dats m 0 c).Φ 0 = PhiS m c 0 from rfl, PhiA0_eq]
  unfold PhiS
  iintro ⟨⟨⟨%d8, H8⟩, ⟨%d9, H9⟩⟩, Hg⟩
  iexists d8, d9
  isplitl [H8]; · iexact H8
  isplitl [H9]; · iexact H9
  isplitr
  · ipureintro
    exact ⟨fun j _ h => absurd h (Nat.not_lt_zero _), fun s _ h => absurd h (Nat.not_lt_zero _)⟩
  iexact Hg

/-- After the last point the invariant gives the scratch buffers back at whatever they hold. -/
theorem hout (c : Dev nD) : (dats m 0 c).Φ (Fin.last cfg0.N) ⊢ Pipeline.ΦA spec0 c := by
  rewrite [show (dats m 0 c).Φ (Fin.last cfg0.N) = PhiS m c (Fin.last cfg0.N).val from rfl, PhiA0_eq]
  unfold PhiS
  iintro ⟨%d8, %d9, H8, H9, -, Hg⟩
  isplitl [H8 H9]
  · isplitl [H8]
    · iexists _; iexact H8
    iexists _; iexact H9
  iexact Hg

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Gen

end
-- ==== Proof.PointsI.lean ====
import proofs.«131862_g20117626815080_cont_8to1_815_21_alg».proof.Proof.Gen.KernelIdeal.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which points take which branch, and where their stores land

The grid has 50 points.  Points 0–24 are the first phase (one row block of the first scratch each); of these,
points 22 and 23 also copy their adjacency block into the second scratch (slots 0 and 1).  Point 25 and points
28–49 are the second phase on the point's own adjacency block; points 26 and 27 are the second phase on the
cached blocks (slots 1 and 0).  The output window is idle, and not written back, throughout the first phase. -/

theorem hcond1 : ∀ t : Fin cfg0.N, k0_cond1 (grid0.coords t) = 1#1 ↔ t.val < 25 :=
  (by decide +kernel : ∀ t : Fin grid0.N, k0_cond1 (grid0.coords t) = 1#1 ↔ t.val < 25)
theorem hcond2 : ∀ t : Fin cfg0.N, k0_cond2 (grid0.coords t) = 1#1 ↔ (22 ≤ t.val ∧ t.val ≤ 23) :=
  (by decide +kernel : ∀ t : Fin grid0.N, k0_cond2 (grid0.coords t) = 1#1 ↔ (22 ≤ t.val ∧ t.val ≤ 23))
theorem hcond3 : ∀ t : Fin cfg0.N, k0_cond3 (grid0.coords t) = 1#1 ↔ (t.val = 25 ∨ 27 < t.val) :=
  (by decide +kernel : ∀ t : Fin grid0.N, k0_cond3 (grid0.coords t) = 1#1 ↔ (t.val = 25 ∨ 27 < t.val))
theorem hcond4 : ∀ t : Fin cfg0.N, k0_cond4 (grid0.coords t) = 1#1 ↔ (25 < t.val ∧ t.val ≤ 27) :=
  (by decide +kernel : ∀ t : Fin grid0.N, k0_cond4 (grid0.coords t) = 1#1 ↔ (25 < t.val ∧ t.val ≤ 27))

/-- A first-phase point stores the rows [400 t, 400 t + 400) of the first scratch. -/
theorem hoff1 : ∀ t : Fin cfg0.N, t.val < 25 → k0_off1 (grid0.coords t) = ![400 * t.val, 0] :=
  (by decide +kernel : ∀ t : Fin grid0.N, t.val < 25 → k0_off1 (grid0.coords t) = ![400 * t.val, 0])
/-- Points 22 and 23 store slots 0 and 1 of the second scratch. -/
theorem hoff2 : ∀ t : Fin cfg0.N, 22 ≤ t.val → t.val ≤ 23 → k0_off2 (grid0.coords t) = ![400 * (t.val - 22), 0] :=
  (by decide +kernel : ∀ t : Fin grid0.N, 22 ≤ t.val → t.val ≤ 23 → k0_off2 (grid0.coords t) = ![400 * (t.val - 22), 0])
/-- Points 26 and 27 load slots 1 and 0 of the second scratch. -/
theorem hoff3 : ∀ t : Fin cfg0.N, 25 < t.val → t.val ≤ 27 → k0_off3 (grid0.coords t) = ![400 * (27 - t.val), 0] :=
  (by decide +kernel : ∀ t : Fin grid0.N, 25 < t.val → t.val ≤ 27 → k0_off3 (grid0.coords t) = ![400 * (27 - t.val), 0])

/-- The input windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The output window is idle and not written back during the first phase, live afterwards. -/
theorem idleAt0_6 : ∀ t : Fin cfg0.N, t.val < 25 → cfg0.idle 6 (grid0.coords t) = true :=
  (by decide +kernel : ∀ t : Fin grid0.N, t.val < 25 → cfg0.idle 6 (grid0.coords t) = true)
theorem noFlush0_6 : ∀ t : Fin cfg0.N, t.val < 25 → (cfg0.win 6).flush t = false :=
  (by decide +kernel : ∀ t : Fin grid0.N, t.val < 25 → win0_6.flush t = false)
theorem liveAt0_6 : ∀ t : Fin cfg0.N, 25 ≤ t.val → cfg0.idle 6 (grid0.coords t) = false :=
  (by decide +kernel : ∀ t : Fin grid0.N, 25 ≤ t.val → cfg0.idle 6 (grid0.coords t) = false)
/-- From the second phase on every point writes its output block back. -/
theorem flush0_6 : ∀ t : Fin cfg0.N, 25 ≤ t.val → (cfg0.win 6).flush t = true :=
  (by decide +kernel : ∀ t : Fin grid0.N, 25 ≤ t.val → win0_6.flush t = true)
/-- The adjacency window's block index: the point itself in the first phase; block 24 at points 25–27; then t − 28. -/
theorem index0_0 : ∀ t : Fin cfg0.N, win0_0.index t (0 : Fin 2) = (if t.val < 25 then t.val else if t.val ≤ 27 then 24 else t.val - 28) ∧ win0_0.index t (1 : Fin 2) = 0 :=
  (by decide +kernel : ∀ t : Fin grid0.N, win0_0.index t (0 : Fin 2) = (if t.val < 25 then t.val else if t.val ≤ 27 then 24 else t.val - 28) ∧ win0_0.index t (1 : Fin 2) = 0)
/-- The output window's block index: 24 up to point 25, 23 and 22 at points 26 and 27, then t − 28. -/
theorem index0_6 : ∀ t : Fin cfg0.N, win0_6.index t (0 : Fin 2) = (if t.val ≤ 25 then 24 else if t.val ≤ 27 then 50 - t.val - 1 else t.val - 28) ∧ win0_6.index t (1 : Fin 2) = 0 :=
  (by decide +kernel : ∀ t : Fin grid0.N, win0_6.index t (0 : Fin 2) = (if t.val ≤ 25 then 24 else if t.val ≤ 27 then 50 - t.val - 1 else t.val - 28) ∧ win0_6.index t (1 : Fin 2) = 0)

end Cert.KernelIdeal.Gen

end
-- ==== Proof.RunFirstI.lean ====
import proofs.«131862_g20117626815080_cont_8to1_815_21_alg».proof.Proof.Gen.KernelIdeal.Skeleton
import proofs.«131862_g20117626815080_cont_8to1_815_21_alg».proof.Proof.LibRows
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of the first phase that caches nothing: it reads the adjacency block and the four
    parameter buffers, and replaces the rows [o, o + 400) of the first scratch by the block's payload. -/
theorem run_first (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S800x10000 .bf16) (harg9 : arg9.IsWhole)
    (hc1 : k0_cond1 i = 1#1) (hc2 : ¬ k0_cond2 i = 1#1) (hc3 : ¬ k0_cond3 i = 1#1) (hc4 : ¬ k0_cond4 i = 1#1)
    (o : ℕ) (ho : k0_off1 i = ![o, 0])
    (x0 : Vec F S400x10000 .f32) (x1 : Vec F S10000x128 .f32) (x2 : Vec F S128x128 .f32) (x3 : Vec F S1x128 .f32) (x4 : Vec F S128x128 .f32)
    (d8 : Vec F S10000x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare d8
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d8' : Vec F S10000x128 .f32, owns (c : Thread nD τ) arg8 fullShare d8' ∗ ⌜RowsSet (sz := S400x128.size) o (k0_pay1 x0 x1 x2 x3 x4) d8 d8'⌝)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%fH0, %hfH0, H0⟩, ⟨%fH1, %hfH1, H1⟩, ⟨%fH2, %hfH2, H2⟩, ⟨%fH3, %hfH3, H3⟩, ⟨%fH4, %hfH4, H4⟩, ⟨%fH8, %hfH8, H8⟩, Hk⟩
  obtain rfl := harg1.eq_unread hfH0
  obtain rfl := harg2.eq_unread hfH1
  obtain rfl := harg3.eq_unread hfH2
  obtain rfl := harg4.eq_unread hfH3
  obtain rfl := harg5.eq_unread hfH4
  obtain rfl := harg8.eq_unread hfH8
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  iexists _
  isplitl [H8]
  · iexists _; isplitr
    swap; · iexact H8
    ipureintro; rfl
  ipureintro
  rw [harg1.readAt_unread_zero x0 zero2, harg2.readAt_unread_zero x1 zero2, harg3.readAt_unread_zero x2 zero2,
    harg4.readAt_unread_zero x3 zero2, harg5.readAt_unread_zero x4 zero2]
  have h := View.rowsSet_of_writes (Val := Elt F) arg8.view (harg8.unread d8) (k0_off1_inb i hc1) (k0_pay1 x0 x1 x2 x3 x4) ho
  rw [harg8.read_unread] at h
  exact h

end Cert.KernelIdeal.Gen

end
-- ==== Proof.RunCacheI.lean ====
import proofs.«131862_g20117626815080_cont_8to1_815_21_alg».proof.Proof.Gen.KernelIdeal.Skeleton
import proofs.«131862_g20117626815080_cont_8to1_815_21_alg».proof.Proof.LibRows
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of the first phase that also caches its adjacency block: besides the rows [o, o + 400) of
    the first scratch it replaces the rows [o', o' + 400) of the second by the block itself (its payload). -/
theorem run_cache (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S800x10000 .bf16) (harg9 : arg9.IsWhole)
    (hc1 : k0_cond1 i = 1#1) (hc2 : k0_cond2 i = 1#1) (hc3 : ¬ k0_cond3 i = 1#1) (hc4 : ¬ k0_cond4 i = 1#1)
    (o o' : ℕ) (ho : k0_off1 i = ![o, 0]) (ho' : k0_off2 i = ![o', 0])
    (x0 : Vec F S400x10000 .f32) (x1 : Vec F S10000x128 .f32) (x2 : Vec F S128x128 .f32) (x3 : Vec F S1x128 .f32) (x4 : Vec F S128x128 .f32)
    (d8 : Vec F S10000x128 .f32) (d9 : Vec F S800x10000 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg8 fullShare d8 ∗ owns (c : Thread nD τ) arg9 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4
            ∗ (∃ d8' : Vec F S10000x128 .f32, owns (c : Thread nD τ) arg8 fullShare d8' ∗ ⌜RowsSet (sz := S400x128.size) o (k0_pay1 x0 x1 x2 x3 x4) d8 d8'⌝)
            ∗ (∃ d9' : Vec F S800x10000 .bf16, owns (c : Thread nD τ) arg9 fullShare d9' ∗ ⌜RowsSet (sz := S400x10000.size) o' (k0_pay2 x0) d9 d9'⌝)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%fH0, %hfH0, H0⟩, ⟨%fH1, %hfH1, H1⟩, ⟨%fH2, %hfH2, H2⟩, ⟨%fH3, %hfH3, H3⟩, ⟨%fH4, %hfH4, H4⟩, ⟨%fH8, %hfH8, H8⟩, ⟨%fH9, %hfH9, H9⟩, Hk⟩
  obtain rfl := harg1.eq_unread hfH0
  obtain rfl := harg2.eq_unread hfH1
  obtain rfl := harg3.eq_unread hfH2
  obtain rfl := harg4.eq_unread hfH3
  obtain rfl := harg5.eq_unread hfH4
  obtain rfl := harg8.eq_unread hfH8
  obtain rfl := harg9.eq_unread hfH9
  sl_exec (disch := first | exact hc1 | exact hc2 | exact hc3 | exact hc4)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H8]
  · iexists _
    isplitl [H8]
    · iexists _; isplitr
      swap; · iexact H8
      ipureintro; rfl
    ipureintro
    rw [harg1.readAt_unread_zero x0 zero2, harg2.readAt_unread_zero x1 zero2, harg3.readAt_unread_zero x2 zero2,
    harg4.readAt_unread_zero x3 zero2, harg5.readAt_unread_zero x4 zero2]
    have h := View.rowsSet_of_writes (Val := Elt F) arg8.view (harg8.unread d8) (k0_off1_inb i hc1) (k0_pay1 x0 x1 x2 x3 x4) ho
    rw [harg8.read_unread] at h
    exact h
  iexists _
  isplitl [H9]
  · iexists _; isplitr
    swap; · iexact H9
    ipureintro; rfl
  ipureintro
  rw [harg1.readAt_unread_zero x0 zero2]
  have h := View.rowsSet_of_writes (Val := Elt F) arg9.view (harg9.unread d9) (k0_off2_inb i hc2) (k0_pay2 x0) ho'
  rw [harg9.read_unread] at h
  exact h

end Cert.KernelIdeal.Gen

end
-- ==== Proof.RunSecondI.lean ====
import proofs.«131862_g20117626815080_cont_8to1_815_21_alg».proof.Proof.Gen.KernelIdeal.Skeleton
import proofs.«131862_g20117626815080_cont_8to1_815_21_alg».proof.Proof.LibRows
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of the second phase that multiplies its own adjacency block: it reads the block, the
    whole first scratch and the bias row, and leaves the payload in the output's buffer. -/
theorem run_second (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S800x10000 .bf16) (harg9 : arg9.IsWhole)
    (hc1 : ¬ k0_cond1 i = 1#1) (hc2 : ¬ k0_cond2 i = 1#1) (hc3 : k0_cond3 i = 1#1) (hc4 : ¬ k0_cond4 i = 1#1)
    (x0 : Vec F S400x10000 .f32) (x5 : Vec F S1x128 .f32) (d8 : Vec F S10000x128 .f32) (d7 : Vec F S400x128 .f32)
    (E : Set ℕ) (K : PUnit → sProp 𝕄) :
    iprop(owns (c : Thread nD τ) arg1 fullShare x0 ∗ owns (c : Thread nD τ) arg6 fullShare x5 ∗ owns (c : Thread nD τ) arg8 fullShare d8 ∗ owns (c : Thread nD τ) arg7 fullShare d7
        ∗ (iprop(owns (c : Thread nD τ) arg1 fullShare x0 ∗ owns (c : Thread nD τ) arg6 fullShare x5 ∗ owns (c : Thread nD τ) arg8 fullShare d8 ∗ owns (c : Thread nD τ) arg7 fullShare (k0_pay3 x0 d8 x5)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%fH0, %hfH0, H0⟩, ⟨%fH5, %hfH5, H5⟩, ⟨%fH8, %hfH8, H8⟩, ⟨%fH7, %hfH7, H7⟩, Hk⟩
  obtain rfl := harg1.eq_unread hfH0
  obtain rfl := harg6.eq_unread hfH5
  obtain rfl := harg8.eq_unread hfH8
  obtain rfl := harg7.eq_unread hfH7
  sl_exec (disch := first | exact hc1 | exact hc2 | exact hc3 | exact hc4)
  sl_step
  iapply Hk
  isplitl [H0]
  · iexists _; isplitr; · ipureintro; exact harg1.read_unread _
    iexact H0
  isplitl [H5]
  · iexists _; isplitr; · ipureintro; exact harg6.read_unread _
    iexact H5
  isplitl [H8]
  · iexists _; isplitr; · ipureintro; exact harg8.read_unread _
    iexact H8
  iexists _; isplitr
  swap; · iexact H7
  ipureintro
  rw [harg1.readAt_unread_zero x0 zero2, harg8.readAt_unread_zero d8 zero2, harg6.readAt_unread_zero x5 zero2]
  funext z
  exact (View.rowsSet_of_writes (Val := Elt F) (o := 0) arg7.view (harg7.unread d7) inb_S400x128_S400x128_0_0 (k0_pay3 x0 d8 x5) rfl).1 z z
    (Nat.zero_add _).symm rfl

end Cert.KernelIdeal.Gen

end
-- ==== Proof.RunCachedI.lean ====
import proofs.«131862_g20117626815080_cont_8to1_815_21_alg».proof.Proof.Gen.KernelIdeal.Skeleton
import proofs.«131862_g20117626815080_cont_8to1_815_21_alg».proof.Proof.LibRows
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body at a point of the second phase that multiplies a cached block: it reads the rows of the second
    scratch the point names, the whole first scratch and the bias row, and leaves the payload in the output's buffer. -/
theorem run_cached (c : Dev nD) (i : grid0.Coords) (arg1 : Memref sig .tc .vmem S400x10000 .f32) (harg1 : arg1.IsWhole) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .f32) (harg8 : arg8.IsWhole) (arg9 : Memref sig .tc .vmem S800x10000 .bf16) (harg9 : arg9.IsWhole)
    (hc1 : ¬ k0_cond1 i = 1#1) (hc2 : ¬ k0_cond2 i = 1#1) (hc3 : ¬ k0_cond3 i = 1#1) (hc4 : k0_cond4 i = 1#1)
    (x5 : Vec F S1x128 .f32) (d8 : Vec F S10000x128 .f32) (d9 : Vec F S800x10000 .bf16) (d7 : Vec F S400x128 .f32)
    (E : Set ℕ) (K : PUnit → sProp 𝕄) :
    iprop(owns (c : Thread nD τ) arg6 fullShare x5 ∗ owns (c : Thread nD τ) arg8 fullShare d8 ∗ owns (c : Thread nD τ) arg9 fullShare d9 ∗ owns (c : Thread nD τ) arg7 fullShare d7
        ∗ (iprop(owns (c : Thread nD τ) arg6 fullShare x5 ∗ owns (c : Thread nD τ) arg8 fullShare d8 ∗ owns (c : Thread nD τ) arg9 fullShare d9
            ∗ owns (c : Thread nD τ) arg7 fullShare (k0_pay4 (View.ld d9 (Rect.unit (s := S800x10000) (k0_off3 i) S400x10000.size (k0_off3_inb i hc4))) d8 x5)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9) K := by
  simp only [cc0__fused_kernel_eq_skeleton]; unfold cc0__fused_kernel_skel
  unfold owns
  iintro ⟨⟨%fH5, %hfH5, H5⟩, ⟨%fH8, %hfH8, H8⟩, ⟨%fH9, %hfH9, H9⟩, ⟨%fH7, %hfH7, H7⟩, Hk⟩
  obtain rfl := harg6.eq_unread hfH5
  obtain rfl := harg8.eq_unread hfH8
  obtain rfl := harg9.eq_unread hfH9
  obtain rfl := harg7.eq_unread hfH7
  sl_exec (disch := first | exact hc1 | exact hc2 | exact hc3 | exact hc4)
  sl_step
  iapply Hk
  isplitl [H5]
  · iexists _; isplitr; · ipureintro; exact harg6.read_unread _
    iexact H5
  isplitl [H8]
  · iexists _; isplitr; · ipureintro; exact harg8.read_unread _
    iexact H8
  isplitl [H9]
  · iexists _; isplitr; · ipureintro; exact harg9.read_unread _
    iexact H9
  iexists _; isplitr
  swap; · iexact H7
  ipureintro
  rw [harg9.readAt_unread d9, harg8.readAt_unread_zero d8 zero2, harg6.readAt_unread_zero x5 zero2]
  funext z
  exact (View.rowsSet_of_writes (Val := Elt F) (o := 0) arg7.view (harg7.unread d7) inb_S400x128_S400x128_0_0
    (k0_pay4 (View.ld d9 (Rect.unit (s := S800x10000) (k0_off3 i) S400x10000.size (k0_off3_inb i hc4))) d8 x5) rfl).1 z z
    (Nat.zero_add _).symm rfl

end Cert.KernelIdeal.Gen

end
-- ==== Proof.BodyDefsI.lean ====
import proofs.«131862_g20117626815080_cont_8to1_815_21_alg».proof.Proof.PointsI
import proofs.«131862_g20117626815080_cont_8to1_815_21_alg».proof.Proof.RunFirstI
import proofs.«131862_g20117626815080_cont_8to1_815_21_alg».proof.Proof.RunCacheI
import proofs.«131862_g20117626815080_cont_8to1_815_21_alg».proof.Proof.RunSecondI
import proofs.«131862_g20117626815080_cont_8to1_815_21_alg».proof.Proof.RunCachedI
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called with -/

abbrev ms0_0 (t : Fin cfg0.N) : Memref sig .tc .vmem S400x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S10000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S400x128 .f32 := win0_6.stage (cfg0.slots t 6)
abbrev hs0_6 (t : Fin cfg0.N) : (ms0_6 t).IsWhole := hstage0_6 ((cfg0.slots t 6).cast nbuf0_6)
/-- The two scratch operands: whole scoped buffers of the kernel's own. -/
abbrev scM0 : Memref sig .tc .vmem S10000x128 .f32 := Memref.whole cc0_scratch0
abbrev scM1 : Memref sig .tc .vmem S800x10000 .bf16 := Memref.whole cc0_scratch1

/-- The region's invariant as the launch hands it over: both scratch buffers at some contents, the generator
    register at some state. -/
theorem PhiA0_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-! ## What the scratch buffers and the output hold, point by point -/

/-- Point number `k` of the grid. -/
def pt (k : ℕ) (h : k < 50) : Fin cfg0.N := ⟨k, lt_of_lt_of_eq h (show cfg0.N = 50 from N_0).symm⟩

/-- The input blocks at a point: the adjacency block, and the whole of x, W1, the bias row b1, W2, the bias row b2. -/
abbrev X0 (c : Dev nD) (t : Fin cfg0.N) : Vec F S400x10000 .f32 := iblk m c 0 t
abbrev X1 (c : Dev nD) (t : Fin cfg0.N) : Vec F S10000x128 .f32 := iblk m c 1 t
abbrev X2 (c : Dev nD) (t : Fin cfg0.N) : Vec F S128x128 .f32 := iblk m c 2 t
abbrev X3 (c : Dev nD) (t : Fin cfg0.N) : Vec F S1x128 .f32 := iblk m c 3 t
abbrev X4 (c : Dev nD) (t : Fin cfg0.N) : Vec F S128x128 .f32 := iblk m c 4 t
abbrev X5 (c : Dev nD) (t : Fin cfg0.N) : Vec F S1x128 .f32 := iblk m c 5 t

/-- What the first phase leaves in row block `j` of the first scratch: the payload of point `j`'s inputs. -/
def blk8 (c : Dev nD) (j : ℕ) (hj : j < 25) : Vec F S400x128 .f32 :=
  k0_pay1 (X0 m c (pt j (by omega))) (X1 m c (pt j (by omega))) (X2 m c (pt j (by omega))) (X3 m c (pt j (by omega))) (X4 m c (pt j (by omega)))

/-- What points 22 and 23 leave in slot `s` of the second scratch: the payload of point `22 + s`'s adjacency block. -/
def blk9 (c : Dev nD) (s : ℕ) (hs : s < 2) : Vec F S400x10000 .bf16 :=
  k0_pay2 (X0 m c (pt (22 + s) (by omega)))

/-- Before point `n`: the row blocks of the first scratch written by the points below `n` hold their payloads, and so
    do the slots of the second scratch written by the points 22, 23 below `n`. -/
def Inv (c : Dev nD) (n : ℕ) (d8 : Vec F S10000x128 .f32) (d9 : Vec F S800x10000 .bf16) : Prop :=
  (∀ (j : ℕ) (hj : j < 25), j < n → ∀ (y : S400x128.Idx) (z : S10000x128.Idx),
      (z (0 : Fin 2)).val = 400 * j + (y (0 : Fin 2)).val → (z (1 : Fin 2)).val = (y (1 : Fin 2)).val → d8 z = blk8 m c j hj y)
  ∧ (∀ (s : ℕ) (hs : s < 2), 22 + s < n → ∀ (y : S400x10000.Idx) (z : S800x10000.Idx),
      (z (0 : Fin 2)).val = 400 * s + (y (0 : Fin 2)).val → (z (1 : Fin 2)).val = (y (1 : Fin 2)).val → d9 z = blk9 m c s hs y)

/-- The first scratch once the first phase is over, as one function of the index. -/
def H8 (c : Dev nD) : Vec F S10000x128 .f32 := fun z =>
  blk8 m c ((z (0 : Fin 2)).val / 400) (by have := ValueIdx.idx2_lt0 z; omega)
    (ValueIdx.ix2 ⟨(z (0 : Fin 2)).val % 400, Nat.mod_lt _ (by omega)⟩ ⟨(z (1 : Fin 2)).val, ValueIdx.idx2_lt1 z⟩)

theorem d8_eq_H8 (c : Dev nD) (n : ℕ) (hn : 25 ≤ n) (d8 : Vec F S10000x128 .f32) (d9 : Vec F S800x10000 .bf16)
    (h : Inv m c n d8 d9) : d8 = H8 m c := by
  funext z
  have hz := ValueIdx.idx2_lt0 z
  exact h.1 ((z (0 : Fin 2)).val / 400) (by omega) (by omega)
    (ValueIdx.ix2 ⟨(z (0 : Fin 2)).val % 400, Nat.mod_lt _ (by omega)⟩ ⟨(z (1 : Fin 2)).val, ValueIdx.idx2_lt1 z⟩) z
    (Nat.div_add_mod _ _).symm rfl

/-- What the second phase leaves in the output's buffer at point `t`: at points 26 and 27 the payload of the cached
    block (slot 27 − t), elsewhere the payload of the point's own adjacency block; both over the whole first scratch. -/
def out6 (c : Dev nD) (t : Fin cfg0.N) : Vec F S400x128 .f32 :=
  if h : 25 < t.val ∧ t.val ≤ 27 then k0_pay4 (blk9 m c (27 - t.val) (by omega)) (H8 m c) (X5 m c t)
  else k0_pay3 (X0 m c t) (H8 m c) (X5 m c t)

/-- The invariant before point `n`. -/
def PhiS (c : Dev nD) (n : ℕ) : sProp 𝕄 :=
  iprop(∃ (d8 : Vec F S10000x128 .f32) (d9 : Vec F S800x10000 .bf16),
    owns (c : Thread nD τ) scM0 fullShare d8 ∗ owns (c : Thread nD τ) scM1 fullShare d9 ∗ ⌜Inv m c n d8 d9⌝ ∗ (∃ r, prngReg c r))

/-! ## How the invariant moves -/

theorem inv_first (c : Dev nD) (t : Fin cfg0.N) (ht : t.val < 22 ∨ t.val = 24) (d8 d8' : Vec F S10000x128 .f32) (d9 : Vec F S800x10000 .bf16)
    (h : Inv m c t.val d8 d9) (hu : RowsSet (sz := S400x128.size) (400 * t.val) (blk8 m c t.val (by omega)) d8 d8') :
    Inv m c (t.val + 1) d8' d9 := by
  refine ⟨fun j hj hlt y z h0 h1 => ?_, fun s hs hlt y z h0 h1 => h.2 s hs (by omega) y z h0 h1⟩
  by_cases hjt : j = t.val
  · subst hjt; exact hu.1 y z h0 h1
  · have hy := ValueIdx.idx2_lt0 y
    rw [hu.2 z (Or.inl (by omega))]
    exact h.1 j hj (by omega) y z h0 h1

theorem inv_cache (c : Dev nD) (t : Fin cfg0.N) (ht : 22 ≤ t.val ∧ t.val ≤ 23) (d8 d8' : Vec F S10000x128 .f32) (d9 d9' : Vec F S800x10000 .bf16)
    (h : Inv m c t.val d8 d9) (hu : RowsSet (sz := S400x128.size) (400 * t.val) (blk8 m c t.val (by omega)) d8 d8')
    (hu' : RowsSet (sz := S400x10000.size) (400 * (t.val - 22)) (blk9 m c (t.val - 22) (by omega)) d9 d9') :
    Inv m c (t.val + 1) d8' d9' := by
  refine ⟨fun j hj hlt y z h0 h1 => ?_, fun s hs hlt y z h0 h1 => ?_⟩
  · by_cases hjt : j = t.val
    · subst hjt; exact hu.1 y z h0 h1
    · have hy := ValueIdx.idx2_lt0 y
      rw [hu.2 z (Or.inl (by omega))]
      exact h.1 j hj (by omega) y z h0 h1
  · by_cases hst : s = t.val - 22
    · subst hst; exact hu'.1 y z h0 h1
    · have hy := ValueIdx.idx2_lt0 y
      rw [hu'.2 z (Or.inl (by omega))]
      exact h.2 s hs (by omega) y z h0 h1

theorem inv_keep (c : Dev nD) (n : ℕ) (hn : 25 ≤ n) (d8 : Vec F S10000x128 .f32) (d9 : Vec F S800x10000 .bf16)
    (h : Inv m c n d8 d9) : Inv m c (n + 1) d8 d9 :=
  ⟨fun j hj _ y z h0 h1 => h.1 j hj (by omega) y z h0 h1, fun s hs _ y z h0 h1 => h.2 s hs (by omega) y z h0 h1⟩

/-- The rows of the second scratch a cached point loads are the block cached there. -/
theorem ld_cache (c : Dev nD) (t : Fin cfg0.N) (ht : 25 < t.val ∧ t.val ≤ 27) (d8 : Vec F S10000x128 .f32) (d9 : Vec F S800x10000 .bf16)
    (h : Inv m c t.val d8 d9) (inb : ∀ a : Fin 2, k0_off3 (grid0.coords t) a + S400x10000.size a ≤ S800x10000.size a) :
    View.ld d9 (Rect.unit (s := S800x10000) (k0_off3 (grid0.coords t)) S400x10000.size inb) = blk9 m c (27 - t.val) (by omega) := by
  funext y
  have hy := ValueIdx.idx2_lt0 y
  let z : S800x10000.Idx := ValueIdx.ix2 ⟨400 * (27 - t.val) + (y (0 : Fin 2)).val, by omega⟩ ⟨(y (1 : Fin 2)).val, ValueIdx.idx2_lt1 y⟩
  exact (View.ld_unit_rows d9 inb (hoff3 t ht.1 ht.2) y z rfl rfl).trans (h.2 (27 - t.val) (by omega) (by omega) y z rfl rfl)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m c t
  Φ t := PhiS m c t.val
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = out6 m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the obligation asks back of an input window's buffer: its block. -/
theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
/-- Of the output's buffer: untouched in the first phase, the point's payload in the second. -/
theorem leaves0_6_idle (c : Dev nD) (t : Fin cfg0.N) (ht : t.val < 25) :
    (dats m 0 c).leavesExact 6 t = iprop(∃ d, owns (c : Thread nD τ) (ms0_6 t) fullShare ((dats m 0 c).before 6 t d)) :=
  Dat.leavesExact_idle (dats m 0 c) 6 t (idleAt0_6 t ht) (noFlush0_6 t ht)
theorem leaves0_6_live (c : Dev nD) (t : Fin cfg0.N) (ht : 25 ≤ t.val) :
    (dats m 0 c).leavesExact 6 t = owns (c : Thread nD τ) (ms0_6 t) fullShare (out6 m c t) := by
  unfold Dat.leavesExact; rw [liveAt0_6 t ht, after0_6]

end Cert.KernelIdeal.Gen

end
-- ==== Proof.BodyI.lean ====
import proofs.«131862_g20117626815080_cont_8to1_815_21_alg».proof.Proof.BodyDefsI
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point.  The input buffers hold their blocks; the closed forms say which branches the point
    takes; the case's run applies; the invariant hands over the two scratch buffers at contents satisfying `Inv` and
    takes them back at contents satisfying it one point later (a first-phase point replaces its own rows; a
    second-phase point only reads, and what it reads is the whole first phase's result). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rewrite [show (dats m 0 c).owesAt () t.succ = (dats m 0 c).owesAt () t.castSucc from rfl]
  rewrite [Phi_succ, Phi_castSucc, leaves0_0, leaves0_1, leaves0_2, leaves0_3, leaves0_4, leaves0_5]
  have hN : t.val < 50 := lt_of_lt_of_eq t.isLt (show cfg0.N = 50 from N_0)
  have hpt : pt t.val hN = t := Fin.ext rfl
  by_cases hA : t.val < 22 ∨ t.val = 24
  · -- the first phase, nothing cached
    have h25 : t.val < 25 := by omega
    rewrite [leaves0_6_idle m c t h25]
    unfold PhiS
    iintro ⟨⟨%d8, %d9, HS8, HS9, %hinv, Hg⟩, Ho, ⟨%e0, H0⟩, ⟨%e1, H1⟩, ⟨%e2, H2⟩, ⟨%e3, H3⟩, ⟨%e4, H4⟩, ⟨%e5, H5⟩, H6⟩
    iapply (run_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
      ((hcond1 t).mpr h25) (fun h => by have := (hcond2 t).mp h; omega) (fun h => by have := (hcond3 t).mp h; omega) (fun h => by have := (hcond4 t).mp h; omega)
      (400 * t.val) (hoff1 t h25) (iblk m c 0 t) (iblk m c 1 t) (iblk m c 2 t) (iblk m c 3 t) (iblk m c 4 t) d8 Set.univ _)
    isplitl [H0]; · iexact H0
    isplitl [H1]; · iexact H1
    isplitl [H2]; · iexact H2
    isplitl [H3]; · iexact H3
    isplitl [H4]; · iexact H4
    isplitl [HS8]; · iexact HS8
    iintro ⟨H0, H1, H2, H3, H4, ⟨%d8', HS8, %hupd⟩⟩
    isplitl [HS8 HS9 Hg]
    · iexists d8', d9
      isplitl [HS8]; · iexact HS8
      isplitl [HS9]; · iexact HS9
      isplitr
      · ipureintro
        refine inv_first m c t hA d8 d8' d9 hinv ?_
        unfold blk8; rw [hpt]; exact hupd
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  by_cases hB : 22 ≤ t.val ∧ t.val ≤ 23
  · -- the first phase, the block cached
    have h25 : t.val < 25 := by omega
    rewrite [leaves0_6_idle m c t h25]
    unfold PhiS
    iintro ⟨⟨%d8, %d9, HS8, HS9, %hinv, Hg⟩, Ho, ⟨%e0, H0⟩, ⟨%e1, H1⟩, ⟨%e2, H2⟩, ⟨%e3, H3⟩, ⟨%e4, H4⟩, ⟨%e5, H5⟩, H6⟩
    iapply (run_cache c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
      ((hcond1 t).mpr h25) ((hcond2 t).mpr hB) (fun h => by have := (hcond3 t).mp h; omega) (fun h => by have := (hcond4 t).mp h; omega)
      (400 * t.val) (400 * (t.val - 22)) (hoff1 t h25) (hoff2 t hB.1 hB.2) (iblk m c 0 t) (iblk m c 1 t) (iblk m c 2 t) (iblk m c 3 t) (iblk m c 4 t) d8 d9 Set.univ _)
    isplitl [H0]; · iexact H0
    isplitl [H1]; · iexact H1
    isplitl [H2]; · iexact H2
    isplitl [H3]; · iexact H3
    isplitl [H4]; · iexact H4
    isplitl [HS8]; · iexact HS8
    isplitl [HS9]; · iexact HS9
    iintro ⟨H0, H1, H2, H3, H4, ⟨%d8', HS8, %hupd⟩, ⟨%d9', HS9, %hupd'⟩⟩
    isplitl [HS8 HS9 Hg]
    · iexists d8', d9'
      isplitl [HS8]; · iexact HS8
      isplitl [HS9]; · iexact HS9
      isplitr
      · ipureintro
        have h22 : 22 + (t.val - 22) = t.val := by omega
        have hpt' : pt (22 + (t.val - 22)) (by omega) = t := Fin.ext h22
        refine inv_cache m c t hB d8 d8' d9 d9' hinv ?_ ?_
        · unfold blk8; rw [hpt]; exact hupd
        · unfold blk9; rw [hpt']; exact hupd'
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  have h25 : 25 ≤ t.val := by omega
  rewrite [leaves0_6_live m c t h25]
  by_cases hE : 25 < t.val ∧ t.val ≤ 27
  · -- the second phase on a cached block
    unfold PhiS
    iintro ⟨⟨%d8, %d9, HS8, HS9, %hinv, Hg⟩, Ho, ⟨%e0, H0⟩, ⟨%e1, H1⟩, ⟨%e2, H2⟩, ⟨%e3, H3⟩, ⟨%e4, H4⟩, ⟨%e5, H5⟩, ⟨%e6, H6⟩⟩
    have hd8 := d8_eq_H8 m c t.val h25 d8 d9 hinv
    iapply (run_cached c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
      (fun h => by have := (hcond1 t).mp h; omega) (fun h => by have := (hcond2 t).mp h; omega) (fun h => by have := (hcond3 t).mp h; omega) ((hcond4 t).mpr hE)
      (iblk m c 5 t) d8 d9 _ Set.univ _)
    isplitl [H5]; · iexact H5
    isplitl [HS8]; · iexact HS8
    isplitl [HS9]; · iexact HS9
    isplitl [H6]; · iexact H6
    iintro ⟨H5, HS8, HS9, H6⟩
    isplitl [HS8 HS9 Hg]
    · iexists d8, d9
      isplitl [HS8]; · iexact HS8
      isplitl [HS9]; · iexact HS9
      isplitr
      · ipureintro; exact inv_keep m c t.val h25 d8 d9 hinv
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rewrite [ld_cache m c t hE d8 d9 hinv, hd8]
    unfold out6; rewrite [dif_pos hE]
    iexact H6
  · -- the second phase on the point's own block
    unfold PhiS
    iintro ⟨⟨%d8, %d9, HS8, HS9, %hinv, Hg⟩, Ho, ⟨%e0, H0⟩, ⟨%e1, H1⟩, ⟨%e2, H2⟩, ⟨%e3, H3⟩, ⟨%e4, H4⟩, ⟨%e5, H5⟩, ⟨%e6, H6⟩⟩
    have hd8 := d8_eq_H8 m c t.val h25 d8 d9 hinv
    iapply (run_second c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0 (Memref.isWhole_whole _) scM1 (Memref.isWhole_whole _)
      (fun h => by have := (hcond1 t).mp h; omega) (fun h => by have := (hcond2 t).mp h; omega) ((hcond3 t).mpr (by omega)) (fun h => by have := (hcond4 t).mp h; omega)
      (iblk m c 0 t) (iblk m c 5 t) d8 _ Set.univ _)
    isplitl [H0]; · iexact H0
    isplitl [H5]; · iexact H5
    isplitl [HS8]; · iexact HS8
    isplitl [H6]; · iexact H6
    iintro ⟨H0, H5, HS8, H6⟩
    isplitl [HS8 HS9 Hg]
    · iexists d8, d9
      isplitl [HS8]; · iexact HS8
      isplitl [HS9]; · iexact HS9
      isplitr
      · ipureintro; exact inv_keep m c t.val h25 d8 d9 hinv
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    rewrite [hd8]
    unfold out6; rewrite [dif_neg hE]
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point: no block written yet. -/
theorem hin (c : Dev nD) : Pipeline.ΦA spec0 c ⊢ (dats m 0 c).Φ 0 := by
  rewrite [show (dats m 0 c).Φ 0 = PhiS m c 0 from rfl, PhiA0_eq]
  unfold PhiS
  iintro ⟨⟨⟨%d8, H8⟩, ⟨%d9, H9⟩⟩, Hg⟩
  iexists d8, d9
  isplitl [H8]; · iexact H8
  isplitl [H9]; · iexact H9
  isplitr
  · ipureintro
    exact ⟨fun j _ h => absurd h (Nat.not_lt_zero _), fun s _ h => absurd h (Nat.not_lt_zero _)⟩
  iexact Hg

/-- After the last point the invariant gives the scratch buffers back at whatever they hold. -/
theorem hout (c : Dev nD) : (dats m 0 c).Φ (Fin.last cfg0.N) ⊢ Pipeline.ΦA spec0 c := by
  rewrite [show (dats m 0 c).Φ (Fin.last cfg0.N) = PhiS m c (Fin.last cfg0.N).val from rfl, PhiA0_eq]
  unfold PhiS
  iintro ⟨%d8, %d9, H8, H9, -, Hg⟩
  isplitl [H8 H9]
  · isplitl [H8]
    · iexists _; iexact H8
    iexists _; iexact H9
  iexact Hg

/-! ## The run and the frame -/

set_option backward.isDefEq.respectTransparency.types false in
/-- Every weakly fair execution of @main terminates, and every final state has every array of the pipeline at what
    the library computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Gen

end
-- ==== Proof.RefRun.lean ====
/-
  The reference program's run.

  The reference's @main is fourteen host operations and two calls of the outlined leaky relu, each of which calls
  the outlined select. Unfolding the calls at their call sites, @main is one straight line of twenty-six operations
  ("ops"); a straight line runs to the fold of its operations' results over the launch contents, so the result buffer
  ends at the composed term of the six argument arrays ("term"): two layers, each
     select (h ≥ 0) h (slope · h)   of   h = adj · (x · W) + broadcast b,
  and the arguments end unchanged. The term is stated for any float values; nothing here reads it at an index.
-/
import proofs.«131862_g20117626815080_cont_8to1_815_21_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls unfolded: a layer's six (the two products, the bias broadcast twice,
    the sum, the slope constant), then the leaky relu's seven into that call's buffers (the zero, its broadcast, the
    comparison, the slope converted to its own type, its broadcast, the product, the select). -/
abbrev ops : List (HloOp τ sig (Elt F)) :=
  [ binary main_arg0 main_arg2 main_v0 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v0 main_v1 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    nullary main_cst (constant S_ .f32 0x3C23D70A#32),
    TRef.nullary main_call0.cst (constant S_ .f32 0x00000000#32),
    TRef.unary main_call0.cst main_call0.v0 (broadcastInDim S10000x128 ![] bcast_S_S10000x128),
    TRef.binary (.of main_v4) main_call0.v0 main_call0.v1 (cmpf .oge),
    TRef.unary (.of main_cst) main_call0.v2 id,
    TRef.unary main_call0.v2 main_call0.v3 (broadcastInDim S10000x128 ![] bcast_S_S10000x128),
    TRef.binary main_call0.v3 (.of main_v4) main_call0.v4 mulf,
    TRef.ternary main_call0.v1 (.of main_v4) main_call0.v4 main_call0.call0.v0 select,
    binary main_v5 main_arg4 main_v6 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v6 main_v7 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    unary main_arg5 main_v8 (broadcastInDim S1x128 ![1] bcast_S128_S1x128_1 : (⟨S128, .f32⟩ : BufTy).Contents (Elt F) → (⟨S1x128, .f32⟩ : BufTy).Contents (Elt F)),
    unary main_v8 main_v9 (broadcastInDim S10000x128 ![0, 1] bcast_S1x128_S10000x128_0_1 : (⟨S1x128, .f32⟩ : BufTy).Contents (Elt F) → (⟨S10000x128, .f32⟩ : BufTy).Contents (Elt F)),
    binary main_v7 main_v9 main_v10 (addf : (⟨S10000x128, .f32⟩ : BufTy).Contents (Elt F) → (⟨S10000x128, .f32⟩ : BufTy).Contents (Elt F) → (⟨S10000x128, .f32⟩ : BufTy).Contents (Elt F)),
    nullary main_cst_0 (constant S_ .f32 0x3C23D70A#32),
    TRef.nullary main_call1.cst (constant S_ .f32 0x00000000#32),
    TRef.unary main_call1.cst main_call1.v0 (broadcastInDim S10000x128 ![] bcast_S_S10000x128),
    TRef.binary (.of main_v10) main_call1.v0 main_call1.v1 (cmpf .oge),
    TRef.unary (.of main_cst_0) main_call1.v2 id,
    TRef.unary main_call1.v2 main_call1.v3 (broadcastInDim S10000x128 ![] bcast_S_S10000x128),
    TRef.binary main_call1.v3 (.of main_v10) main_call1.v4 mulf,
    TRef.ternary main_call1.v1 (.of main_v10) main_call1.v4 main_call1.call0.v0 select ]

-- twenty-six binds re-associated
set_option maxRecDepth 2048 in
/-- @main is that straight line: the outlined functions unfolded at their calls, both sides are one chain of steps
    once sequencing is re-associated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-! ## The composed term -/

/-- The outlined leaky relu on a whole array `h` with slope `s`, as its seven operations compose: compare with the
    broadcast zero, multiply by the broadcast slope (converted to its own type), select. -/
def lreluT (h : FVec F S10000x128 .f32) (s : FVec F S_ .f32) : FVec F S10000x128 .f32 :=
  select (cmpf .oge h (broadcastInDim S10000x128 ![] bcast_S_S10000x128 (constant S_ .f32 0x00000000#32))) h
    (mulf (broadcastInDim S10000x128 ![] bcast_S_S10000x128 (id s)) h)

/-- One layer on whole arrays: adj · (h · W), plus the bias broadcast along the rows, through the leaky relu at
    the printed slope. -/
def layerT (adj : FVec F S10000x10000 .f32) (h : FVec F S10000x128 .f32) (W : FVec F S128x128 .f32)
    (b : FVec F S128 .f32) : FVec F S10000x128 .f32 :=
  lreluT
    (addf (Host.dotGeneral dot_S10000x10000_S10000x128_S10000x128_1_0_0_1_n_n none adj (Host.dotGeneral dot_S10000x128_S128x128_S10000x128_1_0_0_1_n_n none h W))
      (broadcastInDim S10000x128 ![0, 1] bcast_S1x128_S10000x128_0_1 (broadcastInDim S1x128 ![1] bcast_S128_S1x128_1 b)))
    (constant S_ .f32 0x3C23D70A#32)

/-- The reference's result as one term of its six argument arrays: the layer twice. -/
def term (x : FVec F S10000x128 .f32) (adj : FVec F S10000x10000 .f32) (W1 : FVec F S128x128 .f32) (b1 : FVec F S128 .f32)
    (W2 : FVec F S128x128 .f32) (b2 : FVec F S128 .f32) : FVec F S10000x128 .f32 :=
  layerT adj (layerT adj x W1 b1) W2 b2

/-! ## The fold at the result and at the arguments -/

set_option maxRecDepth 8192 in
set_option maxHeartbeats 400000 in
/-- The fold at the result buffer is the composed term, by computation: the fold unrolled, each operation's result
    decides whether the buffer read is the one it writes, and the typed references' casts are the identity at these
    literal references. The float operations are those of an arbitrary instance, so nothing opens a product. -/
theorem out_eq (V : Valuation τ sig (Elt F)) :
    after ops V (main_v11 : DevRef τ sig)
      = term (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [after_cons, after_nil]
  rfl

/-- No operation writes an argument's buffer. -/
theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

theorem arg4_eq (V : Valuation τ sig (Elt F)) :
    after ops V (main_arg4 : DevRef τ sig) = V (main_arg4 : DevRef τ sig) := by
  simp only [after_cons, after_nil]
  rfl

theorem arg5_eq (V : Valuation τ sig (Elt F)) :
    after ops V (main_arg5 : DevRef τ sig) = V (main_arg5 : DevRef τ sig) := by
  simp only [after_cons, after_nil]
  rfl

/-! ## The run -/

/-- On every device, for any float values, from any memory with zero counters: every weakly fair execution of
    @main terminates with the result buffer at the composed term of the arguments' launch contents and the six
    arguments unchanged. -/
theorem run_term (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v11) = term (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v11).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _)⟩)
    (run_seq scopedRefs_eq scopedSems_eq defs main (fun _ => ops) main_eq (fun _ => ops_sub) m ρ)

end Cert.ReferenceIdeal.RefValue

end
-- ==== Proof.Spec.lean ====
/-
  The two-layer graph convolution both programs compute, as plain functions on extended reals.

  One layer is   h'(r, j) = lrelu( Σ_k adj(r, k) · ( Σ_j' h(k, j') · W(j', j) ) + b(j) ),
  with lrelu(h) = h when h ≥ 0 and slope · h otherwise (slope the single-precision word both programs print).
  The reference applies the layer twice ("refForm").  The kernel computes the first layer row block by row block
  with the products re-associated, (adj · x) · W1 instead of adj · (x · W1), multiplies by W2 at once and keeps
  the product ("h1w"); its second phase is adj · h1w + b2 through lrelu ("kerForm").  The two forms differ only by
  associativity of the first product, which holds on the extended reals when the entries of adj, x and W1 are real.
-/
import Idealize.ShloMosaic.PureOps.Ideal
import Idealize.ShloMosaic.Lib.ValueIdx

noncomputable section

namespace Cert.GcnSpec

open Idealize.ShloMosaic Idealize.ShloMosaic.ValueIdx

/-- A rank-2 array read as a matrix. -/
def mat {a b : Nat} (f : (⟨2, ![a, b]⟩ : Shape).Idx → EReal) : Fin a → Fin b → EReal := fun r c => f (ix2 r c)

/-- A rank-1 array read as a vector. -/
def vec {a : Nat} (f : (⟨1, ![a]⟩ : Shape).Idx → EReal) : Fin a → EReal := fun j => f (ix1 j)

/-- The negative slope: the word both programs print for 0.01 in single precision. -/
def slope : EReal := Ideal.ofBits .f32 0x3C23D70A#32

/-- Leaky relu as both programs spell it: compare with zero, keep the value or scale it. -/
def lrelu (h : EReal) : EReal :=
  Scalar.select (Ideal.cmp .oge h (Ideal.ofBits .f32 0x00000000#32)) h (slope * h)

variable {n d : Nat}

/-- One layer as the reference computes it. -/
def layer (adj : Fin n → Fin n → EReal) (h : Fin n → Fin d → EReal) (W : Fin d → Fin d → EReal) (b : Fin d → EReal) :
    Fin n → Fin d → EReal :=
  fun r j => lrelu ((∑ k, adj r k * (∑ j', h k j' * W j' j)) + b j)

/-- The reference: the layer applied twice. -/
def refForm (adj : Fin n → Fin n → EReal) (x : Fin n → Fin d → EReal) (W1 : Fin d → Fin d → EReal) (b1 : Fin d → EReal)
    (W2 : Fin d → Fin d → EReal) (b2 : Fin d → EReal) : Fin n → Fin d → EReal :=
  layer adj (layer adj x W1 b1) W2 b2

/-- What the kernel's first phase keeps: the first layer, its first product re-associated, times W2. -/
def h1w (adj : Fin n → Fin n → EReal) (x : Fin n → Fin d → EReal) (W1 : Fin d → Fin d → EReal) (b1 : Fin d → EReal)
    (W2 : Fin d → Fin d → EReal) : Fin n → Fin d → EReal :=
  fun k j => ∑ j'', lrelu ((∑ j', (∑ k', adj k k' * x k' j') * W1 j' j'') + b1 j'') * W2 j'' j

/-- The kernel's result: the second phase over what the first kept. -/
def kerForm (adj : Fin n → Fin n → EReal) (x : Fin n → Fin d → EReal) (W1 : Fin d → Fin d → EReal) (b1 : Fin d → EReal)
    (W2 : Fin d → Fin d → EReal) (b2 : Fin d → EReal) : Fin n → Fin d → EReal :=
  fun r j => lrelu ((∑ k, adj r k * h1w adj x W1 b1 W2 k j) + b2 j)

end Cert.GcnSpec

end
-- ==== Proof.RefRead.lean ====
/-
  The reference's composed term read index by index, at the ideal values.

  At an index (r, j): each product is the sum over its contracted coordinate of the products of the entries; the
  bias, broadcast first to one row and then along the rows, reads b j; the sum is the sum of extended reals; and the
  outlined leaky relu (compare with the broadcast zero, multiply by the broadcast slope, select) is the scalar leaky
  relu of the entry. So one layer of whole arrays read at (r, j) is the specification's layer of the arrays read as
  matrices, and the term, two layers, is the specification's reference form. The operand of each layer is a variable
  while it is read, so no product is ever opened.
-/
import proofs.«131862_g20117626815080_cont_8to1_815_21_alg».proof.Proof.RefRun
import proofs.«131862_g20117626815080_cont_8to1_815_21_alg».proof.Proof.Spec
import Idealize.ShloMosaic.Lib.ValueIdx
import Idealize.ShloMosaic.Lib.StackMember

noncomputable section

namespace Cert.ReferenceIdeal.RefValue

open Cert.ReferenceIdeal Cert.ReferenceIdeal.Gen Idealize.ShloMosaic Idealize.ShloMosaic.TcCoe Idealize.SL.Sem
open Idealize.ShloMosaic.ValueIdx Idealize.ShloMosaic.StackMember Cert.GcnSpec

/-! ## The two dimension records are the plain matrix product's -/

theorem dotX_eq : dot_S10000x128_S128x128_S10000x128_1_0_0_1_n_n = DotDims.plain 10000 128 128 := rfl
theorem dotA_eq : dot_S10000x10000_S10000x128_S10000x128_1_0_0_1_n_n = DotDims.plain 10000 10000 128 := rfl

/-- h · W at (r, j): the sum over the 128 columns of h's row r against W's column j. -/
theorem dotX_apply (h : FVec Ideal S10000x128 .f32) (W : FVec Ideal S128x128 .f32) (r : Fin 10000) (j : Fin 128) :
    Host.dotGeneral dot_S10000x128_S128x128_S10000x128_1_0_0_1_n_n none h W (ix2 r j) = ∑ c : Fin 128, h (ix2 r c) * W (ix2 c j) := by
  rw [dotX_eq]
  exact dotGeneral_plain_apply none h W r j

/-- adj · Y at (r, j): the sum over the 10000 nodes of adj's row r against Y's column j. -/
theorem dotA_apply (adj : FVec Ideal S10000x10000 .f32) (Y : FVec Ideal S10000x128 .f32) (r : Fin 10000) (j : Fin 128) :
    Host.dotGeneral dot_S10000x10000_S10000x128_S10000x128_1_0_0_1_n_n none adj Y (ix2 r j) = ∑ k : Fin 10000, adj (ix2 r k) * Y (ix2 k j) := by
  rw [dotA_eq]
  exact dotGeneral_plain_apply none adj Y r j

/-- The bias, broadcast to one row and then along the rows, reads b j at (r, j). -/
theorem bias_apply (b : FVec Ideal S128 .f32) (r : Fin 10000) (j : Fin 128) :
    broadcastInDim S10000x128 ![0, 1] bcast_S1x128_S10000x128_0_1 (broadcastInDim S1x128 ![1] bcast_S128_S1x128_1 b) (ix2 r j)
      = b (ix1 j) := by
  refine congrArg b (funext fun a => ?_)
  match a with
  | ⟨0, _⟩ => rfl

/-- The outlined leaky relu at the printed slope, read at an index, is the scalar leaky relu of the entry: the
    broadcast constants read their words everywhere, the conversion is the identity, the comparison and the
    product are the extended reals'. -/
theorem lreluT_apply (h : FVec Ideal S10000x128 .f32) (i : S10000x128.Idx) :
    lreluT h (constant S_ .f32 0x3C23D70A#32) i = lrelu (h i) := rfl

/-- One layer of whole arrays at (r, j) is the specification's layer of the arrays read as matrices. -/
theorem layerT_apply (adj : FVec Ideal S10000x10000 .f32) (h : FVec Ideal S10000x128 .f32) (W : FVec Ideal S128x128 .f32)
    (b : FVec Ideal S128 .f32) (r : Fin 10000) (j : Fin 128) :
    layerT adj h W b (ix2 r j) = layer (mat adj) (mat h) (mat W) (vec b) r j := by
  unfold layerT
  rw [lreluT_apply, addf_apply, bias_apply, dotA_apply]
  simp only [dotX_apply]
  rfl

/-! ## The result as one function of the six argument arrays -/

/-- The reference's result: the specification's reference form of the six arrays, read as matrices and vectors. -/
def out (x : FVec Ideal S10000x128 .f32) (adj : FVec Ideal S10000x10000 .f32) (W1 : FVec Ideal S128x128 .f32)
    (b1 : FVec Ideal S128 .f32) (W2 : FVec Ideal S128x128 .f32) (b2 : FVec Ideal S128 .f32) : FVec Ideal S10000x128 .f32 :=
  fun i => refForm (mat adj) (mat x) (mat W1) (vec b1) (mat W2) (vec b2) (i 0) (i 1)

/-- The composed term is that function. -/
theorem term_eq_out (x : FVec Ideal S10000x128 .f32) (adj : FVec Ideal S10000x10000 .f32) (W1 : FVec Ideal S128x128 .f32)
    (b1 : FVec Ideal S128 .f32) (W2 : FVec Ideal S128x128 .f32) (b2 : FVec Ideal S128 .f32) :
    term x adj W1 b1 W2 b2 = out x adj W1 b1 W2 b2 := by
  funext i
  obtain ⟨r, j, rfl⟩ : ∃ (r : Fin 10000) (j : Fin 128), i = ix2 r j := ⟨i 0, i 1, eq_ix2 i⟩
  have h1 : mat (layerT adj x W1 b1) = layer (mat adj) (mat x) (mat W1) (vec b1) :=
    funext fun r' => funext fun c => layerT_apply adj x W1 b1 r' c
  show layerT adj (layerT adj x W1 b1) W2 b2 (ix2 r j) = layer (mat adj) (layer (mat adj) (mat x) (mat W1) (vec b1)) (mat W2) (vec b2) r j
  rw [layerT_apply, h1]

/-! ## The run, over the specification -/

/-- On every device, from any memory with zero counters: every weakly fair execution of the reference's @main at
    the ideal values terminates with the result buffer at `out` of the arguments' launch contents and the six
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v11) = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := Ideal)) _ _).mono (fun _ h c => ⟨(h c).1.trans (term_eq_out _ _ _ _ _ _), (h c).2⟩) (run_term m ρ)

end Cert.ReferenceIdeal.RefValue

end
-- ==== Proof.FinalI.lean ====
import proofs.«131862_g20117626815080_cont_8to1_815_21_alg».proof.Proof.BodyDefsI
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## From the blocks written back to the output array

The output, 10000 rows by 128 columns, is written back in blocks of 400 rows at the points 25 to 49: point 25 writes
row block 24, points 26 and 27 row blocks 23 and 22, and a point t from 28 on row block t − 28. So every row block
b below 25 is written back by exactly one point, `wr b`, and the array after the run is, at row r, what point
`wr (r / 400)` left in the output's buffer at row r mod 400. -/

/-- The point that writes back row block `b` of the output. -/
def wr (b : ℕ) : ℕ := if b = 24 then 25 else if b = 23 then 26 else if b = 22 then 27 else b + 28

/-- It is a point of the grid, -/
theorem wr_lt (b : ℕ) (hb : b < 25) : wr b < 50 := by unfold wr; split_ifs <;> omega
/-- and one of the second phase, which writes back. -/
theorem wr_ge (b : ℕ) : 25 ≤ wr b := by unfold wr; split_ifs <;> omega

/-- The output array after the run, as one function of the index. -/
def G6 (c : Dev nD) : Vec F S10000x128 .f32 := fun z =>
  out6 m c (pt (wr ((z (0 : Fin 2)).val / 400)) (by have := ValueIdx.idx2_lt0 z; exact wr_lt _ (by omega)))
    (ValueIdx.ix2 ⟨(z (0 : Fin 2)).val % 400, Nat.mod_lt _ (by omega)⟩ ⟨(z (1 : Fin 2)).val, ValueIdx.idx2_lt1 z⟩)

/-- A point of the second phase is the point that writes back its own row block. -/
theorem wr_index (t : Fin cfg0.N) (ht : 25 ≤ t.val) : wr (win0_6.index t (0 : Fin 2)) = t.val := by
  have hN : cfg0.N = 50 := N_0
  have hlt := t.isLt
  rw [(index0_6 t).1]
  unfold wr
  split_ifs <;> omega

/-- The point that writes back row block `b` has block index `b`. -/
theorem index_wr (b : ℕ) (hb : b < 25) : win0_6.index (pt (wr b) (wr_lt b hb)) (0 : Fin 2) = b := by
  rw [(index0_6 (pt (wr b) (wr_lt b hb))).1]
  show (if wr b ≤ 25 then 24 else if wr b ≤ 27 then 50 - wr b - 1 else wr b - 28) = b
  unfold wr
  split_ifs <;> omega

/-- The array function read where a second-phase point's block sits is what that point left: row 400 b + y₀ of the
    array, b the point's block index, is row y₀ of the point's buffer. -/
theorem G6_block (c : Dev nD) (t : Fin cfg0.N) (ht : 25 ≤ t.val) (y : S400x128.Idx) (z : S10000x128.Idx)
    (h0 : (z (0 : Fin 2)).val = 400 * win0_6.index t (0 : Fin 2) + (y (0 : Fin 2)).val)
    (h1 : (z (1 : Fin 2)).val = (y (1 : Fin 2)).val) : G6 m c z = out6 m c t y := by
  have hy := ValueIdx.idx2_lt0 y
  have hb : (z (0 : Fin 2)).val / 400 = win0_6.index t (0 : Fin 2) := by rw [h0]; omega
  have hw : wr ((z (0 : Fin 2)).val / 400) = t.val := by rw [hb]; exact wr_index t ht
  have hix : (ValueIdx.ix2 (⟨(z (0 : Fin 2)).val % 400, Nat.mod_lt _ (by omega)⟩ : Fin 400)
      (⟨(z (1 : Fin 2)).val, ValueIdx.idx2_lt1 z⟩ : Fin 128) : S400x128.Idx) = y := by
    funext a; apply Fin.ext
    match a with
    | ⟨0, _⟩ => show (z (0 : Fin 2)).val % 400 = (y (0 : Fin 2)).val; rw [h0]; omega
    | ⟨1, _⟩ => exact h1
  show out6 m c (pt _ _) (ValueIdx.ix2 _ _) = out6 m c t y
  exact congrArg₂ (out6 m c) (Fin.ext hw) hix

/-- What a point writes back is its block of the array function. -/
theorem flushed6_eq (c : Dev nD) (t : Fin cfg0.N) (hf : (cfg0.win 6).flush t = true) :
    (dats m 0 c).flushed 6 t = ((cfg0.win 6).blk t).view.read (Elt F) (G6 m c) := by
  have ht : 25 ≤ t.val := by
    by_contra h
    rw [noFlush0_6 t (by omega)] at hf
    exact Bool.noConfusion hf
  show (cfg0.win 6).cut (grid0.coords t) ((dats m 0 c).after 6 t) = _
  rw [after0_6]
  funext y
  show out6 m c t y = G6 m c (((cfg0.win 6).blk t).view.emb y)
  refine (G6_block m c t ht y _ ?_ ?_).symm
  · show win0_6.index t (0 : Fin 2) * 400 + 1 * (y 0).val = 400 * win0_6.index t (0 : Fin 2) + (y 0).val
    omega
  · show win0_6.index t (1 : Fin 2) * 128 + 1 * (y 1).val = (y 1).val
    rw [(index0_6 t).2]; omega

/-- An index of the array is in a point's block iff each coordinate is in the block's range on its axis. -/
theorem mem_blk6 (t : Fin cfg0.N) (i : S10000x128.Idx) :
    i ∈ ((cfg0.win 6).blk t).view.set ↔ ∀ a : Fin 2, win0_6.index t a * S400x128.size a ≤ (i a).val ∧ (i a).val < win0_6.index t a * S400x128.size a + S400x128.size a := by
  show i ∈ ((View.whole main_v2).slice (win0_6.rect t)).set ↔ _
  rw [View.set_slice_whole, Rect.mem_set_unit]
  exact Iff.rfl

/-- Every index of the array is in the block of a point that writes back: row r in that of `wr (r / 400)`. -/
theorem cover6 (i : S10000x128.Idx) :
    ∃ t : Fin cfg0.N, (cfg0.win 6).flush t = true ∧ i ∈ ((cfg0.win 6).blk t).view.set := by
  have hi0 := ValueIdx.idx2_lt0 i
  have hi1 := ValueIdx.idx2_lt1 i
  have hb : (i (0 : Fin 2)).val / 400 < 25 := by omega
  refine ⟨pt (wr ((i (0 : Fin 2)).val / 400)) (wr_lt _ hb), flush0_6 _ (wr_ge _), ?_⟩
  rw [mem_blk6]
  intro a
  match a with
  | ⟨0, _⟩ =>
    show win0_6.index (pt (wr ((i (0 : Fin 2)).val / 400)) (wr_lt _ hb)) (0 : Fin 2) * 400 ≤ (i 0).val
      ∧ (i 0).val < win0_6.index (pt (wr ((i (0 : Fin 2)).val / 400)) (wr_lt _ hb)) (0 : Fin 2) * 400 + 400
    rw [index_wr _ hb]; omega
  | ⟨1, _⟩ =>
    show win0_6.index (pt (wr ((i (0 : Fin 2)).val / 400)) (wr_lt _ hb)) (1 : Fin 2) * 128 ≤ (i 1).val
      ∧ (i 1).val < win0_6.index (pt (wr ((i (0 : Fin 2)).val / 400)) (wr_lt _ hb)) (1 : Fin 2) * 128 + 128
    rw [(index0_6 _).2]; omega

/-- The output array after the run is that function. -/
theorem final6 (c : Dev nD) : (dats m 0 c).arrAt 6 cfg0.N = G6 m c :=
  (dats m 0 c).arrAt_eq_of_cover 6 (G6 m c) (flushed6_eq m c) cover6

end Cert.KernelIdeal.Gen

end
-- ==== Proof.OutRunI.lean ====
import proofs.«131862_g20117626815080_cont_8to1_815_21_alg».proof.Proof.BodyI
import proofs.«131862_g20117626815080_cont_8to1_815_21_alg».proof.Proof.FinalI
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's run with its result named: every weakly fair execution of @main terminates, the result array
    holds `G6` — row block b what the point that writes it back left in the output's buffer —, and the argument
    arrays are as launched. -/
theorem run_out : θ_run defs (onTc (τ := τ) (main (F := F))) ⟨m, fun _ => 0, ρ⟩ (fun r => ∀ c : Dev nD,
      r.2.mem ((c.tc : Thread nD τ).loc main_v2) = G6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final6 m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).1 4).trans (((dats m 0 c).arrAt_in 4 rfl _).trans ((A_eq m c 4).trans (V_main_arg4 m c))),
      ((h c).2 main_arg5 (Pipeline.mem_restRefs_of main_arg5 (by decide) (by decide))).trans (V_main_arg5 m c)⟩) (run_main m ρ)

end Cert.KernelIdeal.Gen

end
-- ==== Proof.PayloadsI.lean ====
/-
  The kernel body's four stored values, read at one index, at the ideal values.

  Each is a short chain of a matrix product into the zero accumulator, the bias row broadcast down the rows,
  and the leaky relu; read at the index (p, q) a product is the sum over the contracted coordinate of the
  products of the entries, the broadcast bias is its entry (0, q), a cast to the same shape and a change of
  format are the identity on extended reals.
-/
import proofs.«131862_g20117626815080_cont_8to1_815_21_alg».proof.Proof.Gen.KernelIdeal.Skeleton
import proofs.«131862_g20117626815080_cont_8to1_815_21_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Cert.GcnSpec Idealize.ShloMosaic Idealize.ShloMosaic.ValueIdx

/-- A plain product of an M×K by a K×N matrix on the matrix unit, into the zero accumulator, read at (a, b): the sum
    over the contracted coordinate of the products of the entries. `w` is the record's well-formedness. -/
theorem matmul_plain_zero_apply {M K N : Nat} {φ₁ φ₂ : FTy}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (F := Ideal) (⟨[1], [0], [0], [1], [], [], w⟩ : DotDims _ _ _) prec A B
        (constant (F := Ideal) ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The bias row, cast to its own shape and broadcast down the 400 rows, read at (p, q) is its entry (0, q). -/
theorem bias_apply (br : FVec Ideal S1x128 .f32) (p : Fin 400) (q : Fin 128) :
    broadcastTo S400x128 (shapeCast S1x128 br shapeCasts_S1x128_S1x128) broadcasts_S1x128_S400x128 (ix2 p q)
      = br (ix2 (0 : Fin 1) q) := by
  rw [shapeCast_self]
  exact broadcastTo_apply br broadcasts_S1x128_S400x128 (ix2 p q) (ix2 (0 : Fin 1) q) (fun ax => by
    match ax with
    | ⟨0, _⟩ => rfl
    | ⟨1, _⟩ => rfl)

/-- The leaky relu as the body spells it, on one element, is the specification's. -/
theorem lrelu_eq (v : EReal) :
    Scalar.select (FloatOps.cmpf (F := Ideal) (φ := .f32) .oge v (Scalar.ofBits (F := Ideal) .f32 0x00000000#32)) v
        (FloatOps.mulf (F := Ideal) (φ := .f32) (Scalar.ofBits (F := Ideal) .f32 0x3C23D70A#32) v) = lrelu v := rfl

/-- The copy kept in narrower format: at the ideal values, the array itself. -/
theorem pay2_apply (a : FVec Ideal S400x10000 .f32) (y : S400x10000.Idx) : k0_pay2 (F := Ideal) a y = a y := by
  unfold k0_pay2
  rw [shapeCast_self]
  rfl

/-- The second phase's value at (p, q): the row of a against the column of h, plus the bias, through the leaky relu. -/
theorem pay3_apply (a : FVec Ideal S400x10000 .f32) (h : FVec Ideal S10000x128 .f32) (b2r : FVec Ideal S1x128 .f32)
    (p : Fin 400) (q : Fin 128) :
    k0_pay3 (F := Ideal) a h b2r (ix2 p q)
      = lrelu ((∑ k : Fin 10000, a (ix2 p k) * h (ix2 k q)) + b2r (ix2 (0 : Fin 1) q)) := by
  have hm : matmul (F := Ideal) dot_S400x10000_S10000x128_S400x128_1_0_0_1_n_n none a h
      (constant (F := Ideal) S400x128 .f32 0x00000000#32) (ix2 p q) = ∑ k : Fin 10000, a (ix2 p k) * h (ix2 k q) :=
    matmul_plain_zero_apply dot_S400x10000_S10000x128_S400x128_1_0_0_1_n_n_wf none a h p q
  show lrelu (matmul (F := Ideal) dot_S400x10000_S10000x128_S400x128_1_0_0_1_n_n none a h
      (constant (F := Ideal) S400x128 .f32 0x00000000#32) (ix2 p q)
    + broadcastTo S400x128 (shapeCast S1x128 b2r shapeCasts_S1x128_S1x128) broadcasts_S1x128_S400x128 (ix2 p q)) = _
  rw [hm, bias_apply]

/-- The same value from the narrower-format copy of a. -/
theorem pay4_apply (a : FVec Ideal S400x10000 .bf16) (h : FVec Ideal S10000x128 .f32) (b2r : FVec Ideal S1x128 .f32)
    (p : Fin 400) (q : Fin 128) :
    k0_pay4 (F := Ideal) a h b2r (ix2 p q)
      = lrelu ((∑ k : Fin 10000, a (ix2 p k) * h (ix2 k q)) + b2r (ix2 (0 : Fin 1) q)) := by
  have hm : matmul (F := Ideal) dot_S400x10000_S10000x128_S400x128_1_0_0_1_n_n none a h
      (constant (F := Ideal) S400x128 .f32 0x00000000#32) (ix2 p q) = ∑ k : Fin 10000, a (ix2 p k) * h (ix2 k q) :=
    matmul_plain_zero_apply dot_S400x10000_S10000x128_S400x128_1_0_0_1_n_n_wf none a h p q
  show lrelu (matmul (F := Ideal) dot_S400x10000_S10000x128_S400x128_1_0_0_1_n_n none a h
      (constant (F := Ideal) S400x128 .f32 0x00000000#32) (ix2 p q)
    + broadcastTo S400x128 (shapeCast S1x128 b2r shapeCasts_S1x128_S1x128) broadcasts_S1x128_S400x128 (ix2 p q)) = _
  rw [hm, bias_apply]

/-- The first phase's value at (p, q): the first layer at row p, its first product associated as (a · x) · W1, through
    the leaky relu, against column q of W2. -/
theorem pay1_apply (a : FVec Ideal S400x10000 .f32) (x : FVec Ideal S10000x128 .f32) (W1 : FVec Ideal S128x128 .f32)
    (b1r : FVec Ideal S1x128 .f32) (W2 : FVec Ideal S128x128 .f32) (p : Fin 400) (q : Fin 128) :
    k0_pay1 (F := Ideal) a x W1 b1r W2 (ix2 p q)
      = ∑ j'' : Fin 128, lrelu ((∑ j' : Fin 128, (∑ k : Fin 10000, a (ix2 p k) * x (ix2 k j')) * W1 (ix2 j' j''))
          + b1r (ix2 (0 : Fin 1) j'')) * W2 (ix2 j'' q) := by
  -- the three arrays the chain passes through: a · x, (a · x) · W1, and the first layer's output
  have e : k0_pay1 (F := Ideal) a x W1 b1r W2
      = shapeCast S400x128
          (matmul (F := Ideal) dot_S400x128_S128x128_S400x128_1_0_0_1_n_n none
            (fun i : S400x128.Idx => lrelu
              (matmul (F := Ideal) dot_S400x128_S128x128_S400x128_1_0_0_1_n_n none
                  (matmul (F := Ideal) dot_S400x10000_S10000x128_S400x128_1_0_0_1_n_n none a x
                    (constant (F := Ideal) S400x128 .f32 0x00000000#32))
                  W1 (constant (F := Ideal) S400x128 .f32 0x00000000#32) i
                + broadcastTo S400x128 (shapeCast S1x128 b1r shapeCasts_S1x128_S1x128) broadcasts_S1x128_S400x128 i))
            W2 (constant (F := Ideal) S400x128 .f32 0x00000000#32))
          shapeCasts_S400x128_S400x128 := rfl
  rw [e, shapeCast_self]
  refine (matmul_plain_zero_apply dot_S400x128_S128x128_S400x128_1_0_0_1_n_n_wf none _ W2 p q).trans ?_
  refine Finset.sum_congr rfl fun j'' _ => ?_
  refine congrArg (fun v => lrelu v * W2 (ix2 j'' q)) ?_
  rw [bias_apply]
  refine congrArg (fun v => v + b1r (ix2 (0 : Fin 1) j'')) ?_
  refine (matmul_plain_zero_apply dot_S400x128_S128x128_S400x128_1_0_0_1_n_n_wf none _ W1 p j'').trans ?_
  refine Finset.sum_congr rfl fun j' _ => ?_
  refine congrArg (fun v => v * W1 (ix2 j' j'')) ?_
  exact matmul_plain_zero_apply dot_S400x10000_S10000x128_S400x128_1_0_0_1_n_n_wf none a x p j'

end Cert.KernelIdeal.PayValue

end
-- ==== Proof.PayloadsI2.lean ====
/-
  The two bias rows as the region finds them: each is the length-128 bias vector cast to a one-row matrix before the
  region, so its entry (0, j) is the vector's entry j (the two indices have the same row-major position, j).
-/
import proofs.«131862_g20117626815080_cont_8to1_815_21_alg».proof.Proof.Gen.KernelIdeal.Frame
import Idealize.ShloMosaic.Lib.ValueIdx
import Idealize.ShloMosaic.Lib.Pipeline.Value

noncomputable section

namespace Cert.KernelIdeal.PayValue

open Cert.KernelIdeal Cert.KernelIdeal.Gen Idealize.ShloMosaic Idealize.ShloMosaic.ValueIdx Idealize.SL.Sem
open Idealize.ShloMosaic.StableHlo

/-- A vector cast to a one-row matrix, read at (0, j), is its entry j. -/
theorem row_cast_apply {n : Nat} {α : Type} (v : (⟨1, ![n]⟩ : Shape).Idx → α)
    (h : (⟨1, ![n]⟩ : Shape).ShapeCasts ⟨2, ![1, n]⟩) (j : Fin n) :
    shapeCast ⟨2, ![1, n]⟩ v h (ix2 (0 : Fin 1) j) = v (ix1 j) :=
  shapeCast_apply v h (ix2 (0 : Fin 1) j) (ix1 j) (by
    rw [Shape.rowMajor_val_one, Shape.rowMajor_val_two]
    show j.val = 0 * n + j.val
    omega)

variable (m : (ℓ : Loc nD τ sig) → Buf (Elt Ideal) ℓ)

/-- The first layer's bias row as the region finds it. -/
theorem V_main_v0_apply (c : Dev nD) (j : Fin 128) :
    (V (F := Ideal) m c main_v0 : S1x128.Idx → EReal) (ix2 (0 : Fin 1) j)
      = m ((c.tc : Thread nD τ).loc main_arg3) (ix1 j) := by
  have e : (V (F := Ideal) m c main_v0 : S1x128.Idx → EReal)
      = shapeCast S1x128 (m ((c.tc : Thread nD τ).loc main_arg3)) shapeCasts_S128_S1x128 := by
    dsimp only [V, hostOps0]
    after_results
    rfl
  rw [e]
  exact row_cast_apply _ _ j

/-- The second layer's bias row as the region finds it. -/
theorem V_main_v1_apply (c : Dev nD) (j : Fin 128) :
    (V (F := Ideal) m c main_v1 : S1x128.Idx → EReal) (ix2 (0 : Fin 1) j)
      = m ((c.tc : Thread nD τ).loc main_arg5) (ix1 j) := by
  have e : (V (F := Ideal) m c main_v1 : S1x128.Idx → EReal)
      = shapeCast S1x128 (m ((c.tc : Thread nD τ).loc main_arg5)) shapeCasts_S128_S1x128 := by
    dsimp only [V, hostOps0]
    after_results
    rfl
  rw [e]
  exact row_cast_apply _ _ j

end Cert.KernelIdeal.PayValue

end
-- ==== Proof.ValueI.lean ====
/-
  The value the second phase leaves in the output's buffer, index by index, in terms of the six argument arrays.

  An input window's block at a grid point is the window's array read at block index × block size + the index inside the
  block; for the adjacency window the block index depends on the point, for the five whole-array windows it is 0.
  With the payloads read at an index this gives: the first scratch, once the first phase is over, is the first layer
  (its first product associated as (adj · x) · W1) times W2, row by row; and the second phase's stored value at row p of
  the point's block is the kernel's form of the two-layer result at row  400 · (block index) + p.
-/
import proofs.«131862_g20117626815080_cont_8to1_815_21_alg».proof.Proof.BodyDefsI
import proofs.«131862_g20117626815080_cont_8to1_815_21_alg».proof.Proof.PayloadsI
import proofs.«131862_g20117626815080_cont_8to1_815_21_alg».proof.Proof.PayloadsI2
import proofs.«131862_g20117626815080_cont_8to1_815_21_alg».proof.Proof.Spec

set_option maxRecDepth 16384

noncomputable section

namespace Cert.KernelIdeal.OutValue

open Cert.KernelIdeal Cert.KernelIdeal.Gen Cert.KernelIdeal.PayValue Cert.GcnSpec
open Idealize.ShloMosaic Idealize.ShloMosaic.ValueIdx Idealize.SL.Sem

/-! ## The whole-array windows sit at block 0 at every point -/

theorem index0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem index0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem index0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem index0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem index0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

variable (m : (ℓ : Loc nD τ sig) → Buf (Elt Ideal) ℓ) (c : Dev nD)

/-! ## The input blocks read at an index -/

/-- The adjacency block at point t, row p: row  400 · (the point's block index) + p  of the adjacency matrix. -/
theorem X0_apply (t : Fin cfg0.N) (p : Fin 400) (k : Fin 10000) (r : Fin 10000)
    (hr : r.val = 400 * (if t.val < 25 then t.val else if t.val ≤ 27 then 24 else t.val - 28) + p.val) :
    X0 (F := Ideal) m c t (ix2 p k) = m ((c.tc : Thread nD τ).loc main_arg1) (ix2 r k) := by
  show V m c main_arg1 (((cfg0.win 0).blk t).view.emb (ix2 p k)) = _
  rw [V_main_arg1]
  obtain ⟨e0, e1⟩ := index0_0 t
  refine congrArg (m ((c.tc : Thread nD τ).loc main_arg1)) (funext fun a => Fin.ext ?_)
  match a with
  | ⟨0, _⟩ => show win0_0.index t (0 : Fin 2) * 400 + 1 * p.val = r.val; rw [e0, hr]; omega
  | ⟨1, _⟩ => show win0_0.index t (1 : Fin 2) * 10000 + 1 * k.val = k.val; rw [e1]; omega

/-- The x window holds the whole of x at every point. -/
theorem X1_apply (t : Fin cfg0.N) (k : Fin 10000) (j : Fin 128) :
    X1 (F := Ideal) m c t (ix2 k j) = m ((c.tc : Thread nD τ).loc main_arg0) (ix2 k j) := by
  show V m c main_arg0 (((cfg0.win 1).blk t).view.emb (ix2 k j)) = _
  rw [V_main_arg0]
  obtain ⟨e0, e1⟩ := index0_1 t
  refine congrArg (m ((c.tc : Thread nD τ).loc main_arg0)) (funext fun a => Fin.ext ?_)
  match a with
  | ⟨0, _⟩ => show win0_1.index t (0 : Fin 2) * 10000 + 1 * k.val = k.val; rw [e0]; omega
  | ⟨1, _⟩ => show win0_1.index t (1 : Fin 2) * 128 + 1 * j.val = j.val; rw [e1]; omega

/-- The W1 window holds the whole of W1 at every point. -/
theorem X2_apply (t : Fin cfg0.N) (i : Fin 128) (j : Fin 128) :
    X2 (F := Ideal) m c t (ix2 i j) = m ((c.tc : Thread nD τ).loc main_arg2) (ix2 i j) := by
  show V m c main_arg2 (((cfg0.win 2).blk t).view.emb (ix2 i j)) = _
  rw [V_main_arg2]
  obtain ⟨e0, e1⟩ := index0_2 t
  refine congrArg (m ((c.tc : Thread nD τ).loc main_arg2)) (funext fun a => Fin.ext ?_)
  match a with
  | ⟨0, _⟩ => show win0_2.index t (0 : Fin 2) * 128 + 1 * i.val = i.val; rw [e0]; omega
  | ⟨1, _⟩ => show win0_2.index t (1 : Fin 2) * 128 + 1 * j.val = j.val; rw [e1]; omega

/-- The W2 window holds the whole of W2 at every point. -/
theorem X4_apply (t : Fin cfg0.N) (i : Fin 128) (j : Fin 128) :
    X4 (F := Ideal) m c t (ix2 i j) = m ((c.tc : Thread nD τ).loc main_arg4) (ix2 i j) := by
  show V m c main_arg4 (((cfg0.win 4).blk t).view.emb (ix2 i j)) = _
  rw [V_main_arg4]
  obtain ⟨e0, e1⟩ := index0_4 t
  refine congrArg (m ((c.tc : Thread nD τ).loc main_arg4)) (funext fun a => Fin.ext ?_)
  match a with
  | ⟨0, _⟩ => show win0_4.index t (0 : Fin 2) * 128 + 1 * i.val = i.val; rw [e0]; omega
  | ⟨1, _⟩ => show win0_4.index t (1 : Fin 2) * 128 + 1 * j.val = j.val; rw [e1]; omega

/-- The first bias row's window holds the row at every point: entry (0, j) is entry j of the bias vector b1. -/
theorem X3_apply (t : Fin cfg0.N) (j : Fin 128) :
    X3 (F := Ideal) m c t (ix2 (0 : Fin 1) j) = m ((c.tc : Thread nD τ).loc main_arg3) (ix1 j) := by
  refine Eq.trans ?_ (V_main_v0_apply m c j)
  show V m c main_v0 (((cfg0.win 3).blk t).view.emb (ix2 (0 : Fin 1) j)) = V m c main_v0 (ix2 (0 : Fin 1) j)
  obtain ⟨e0, e1⟩ := index0_3 t
  refine congrArg (V m c main_v0) (funext fun a => Fin.ext ?_)
  match a with
  | ⟨0, _⟩ => show win0_3.index t (0 : Fin 2) * 1 + 1 * 0 = 0; rw [e0]
  | ⟨1, _⟩ => show win0_3.index t (1 : Fin 2) * 128 + 1 * j.val = j.val; rw [e1]; omega

/-- The second bias row's window likewise: entry (0, j) is entry j of the bias vector b2. -/
theorem X5_apply (t : Fin cfg0.N) (j : Fin 128) :
    X5 (F := Ideal) m c t (ix2 (0 : Fin 1) j) = m ((c.tc : Thread nD τ).loc main_arg5) (ix1 j) := by
  refine Eq.trans ?_ (V_main_v1_apply m c j)
  show V m c main_v1 (((cfg0.win 5).blk t).view.emb (ix2 (0 : Fin 1) j)) = V m c main_v1 (ix2 (0 : Fin 1) j)
  obtain ⟨e0, e1⟩ := index0_5 t
  refine congrArg (V m c main_v1) (funext fun a => Fin.ext ?_)
  match a with
  | ⟨0, _⟩ => show win0_5.index t (0 : Fin 2) * 1 + 1 * 0 = 0; rw [e0]
  | ⟨1, _⟩ => show win0_5.index t (1 : Fin 2) * 128 + 1 * j.val = j.val; rw [e1]; omega

/-! ## The six arrays as matrices and vectors -/

/-- The adjacency matrix, x, W1, b1, W2, b2 as the launch memory holds them. -/
abbrev ADJ : Fin 10000 → Fin 10000 → EReal := mat (a := 10000) (b := 10000) (m ((c.tc : Thread nD τ).loc main_arg1))
abbrev XX : Fin 10000 → Fin 128 → EReal := mat (a := 10000) (b := 128) (m ((c.tc : Thread nD τ).loc main_arg0))
abbrev WW1 : Fin 128 → Fin 128 → EReal := mat (a := 128) (b := 128) (m ((c.tc : Thread nD τ).loc main_arg2))
abbrev BB1 : Fin 128 → EReal := vec (a := 128) (m ((c.tc : Thread nD τ).loc main_arg3))
abbrev WW2 : Fin 128 → Fin 128 → EReal := mat (a := 128) (b := 128) (m ((c.tc : Thread nD τ).loc main_arg4))
abbrev BB2 : Fin 128 → EReal := vec (a := 128) (m ((c.tc : Thread nD τ).loc main_arg5))

/-! ## The first scratch after the first phase -/

/-- Row p of what point j0 of the first phase stores: row  400 · j0 + p  of the first layer times W2. -/
theorem blk8_apply (j0 : ℕ) (hj : j0 < 25) (p : Fin 400) (q : Fin 128) (r : Fin 10000) (hr : r.val = 400 * j0 + p.val) :
    blk8 (F := Ideal) m c j0 hj (ix2 p q) = h1w (ADJ m c) (XX m c) (WW1 m c) (BB1 m c) (WW2 m c) r q := by
  have h50 : j0 < 50 := by omega
  refine (pay1_apply (X0 m c (pt j0 h50)) (X1 m c (pt j0 h50)) (X2 m c (pt j0 h50)) (X3 m c (pt j0 h50))
    (X4 m c (pt j0 h50)) p q).trans ?_
  unfold h1w
  refine Finset.sum_congr rfl fun j'' _ => ?_
  rw [X3_apply, X4_apply]
  refine congrArg (fun v => lrelu (v + m ((c.tc : Thread nD τ).loc main_arg3) (ix1 j''))
    * m ((c.tc : Thread nD τ).loc main_arg4) (ix2 j'' q)) ?_
  refine Finset.sum_congr rfl fun j' _ => ?_
  rw [X2_apply]
  refine congrArg (fun v => v * m ((c.tc : Thread nD τ).loc main_arg2) (ix2 j' j'')) ?_
  refine Finset.sum_congr rfl fun k' _ => ?_
  rw [X1_apply, X0_apply m c (pt j0 h50) p k' r (by
    show r.val = 400 * (if j0 < 25 then j0 else if j0 ≤ 27 then 24 else j0 - 28) + p.val
    rw [if_pos hj]; exact hr)]
  rfl

/-- The first scratch once the first phase is over: the first layer, its first product associated as (adj · x) · W1,
    times W2. -/
theorem H8_apply (k : Fin 10000) (j : Fin 128) :
    H8 (F := Ideal) m c (ix2 k j) = h1w (ADJ m c) (XX m c) (WW1 m c) (BB1 m c) (WW2 m c) k j :=
  blk8_apply m c (k.val / 400) (by have := k.isLt; omega) ⟨k.val % 400, Nat.mod_lt _ (by omega)⟩ j k
    (Nat.div_add_mod k.val 400).symm

/-! ## The second phase's stored value -/

/-- What a point of the second phase leaves in the output's buffer, at row p: the kernel's form of the result at row
    400 · (the output block's index) + p. -/
theorem out6_apply (t : Fin cfg0.N) (ht : 25 ≤ t.val) (p : Fin 400) (q : Fin 128) (r : Fin 10000)
    (hr : r.val = 400 * (if t.val ≤ 25 then 24 else if t.val ≤ 27 then 49 - t.val else t.val - 28) + p.val) :
    out6 (F := Ideal) m c t (ix2 p q) = kerForm (ADJ m c) (XX m c) (WW1 m c) (BB1 m c) (WW2 m c) (BB2 m c) r q := by
  unfold out6 kerForm
  split
  · rename_i h
    have h50 : 22 + (27 - t.val) < 50 := by omega
    refine (pay4_apply (blk9 m c (27 - t.val) (by omega)) (H8 m c) (X5 m c t) p q).trans ?_
    rw [X5_apply]
    refine congrArg (fun v => lrelu (v + m ((c.tc : Thread nD τ).loc main_arg5) (ix1 q))) ?_
    refine Finset.sum_congr rfl fun k _ => ?_
    rw [H8_apply]
    refine congrArg (fun v => v * h1w (ADJ m c) (XX m c) (WW1 m c) (BB1 m c) (WW2 m c) k q) ?_
    refine (pay2_apply (X0 m c (pt (22 + (27 - t.val)) h50)) (ix2 p k)).trans ?_
    exact X0_apply m c (pt (22 + (27 - t.val)) h50) p k r (by
      show r.val = 400 * (if 22 + (27 - t.val) < 25 then 22 + (27 - t.val)
        else if 22 + (27 - t.val) ≤ 27 then 24 else 22 + (27 - t.val) - 28) + p.val
      rw [if_neg (by omega), if_pos h.2] at hr
      rw [if_pos (by omega)]; omega)
  · rename_i h
    refine (pay3_apply (X0 m c t) (H8 m c) (X5 m c t) p q).trans ?_
    rw [X5_apply]
    refine congrArg (fun v => lrelu (v + m ((c.tc : Thread nD τ).loc main_arg5) (ix1 q))) ?_
    refine Finset.sum_congr rfl fun k _ => ?_
    rw [H8_apply]
    refine congrArg (fun v => v * h1w (ADJ m c) (XX m c) (WW1 m c) (BB1 m c) (WW2 m c) k q) ?_
    exact X0_apply m c t p k r (by
      have h' : t.val = 25 ∨ 27 < t.val := by omega
      rcases h' with h' | h'
      · rw [if_pos (by omega)] at hr
        rw [if_neg (by omega), if_pos (by omega)]; exact hr
      · rw [if_neg (by omega), if_neg (by omega)] at hr
        rw [if_neg (by omega), if_neg (by omega)]; exact hr)

end Cert.KernelIdeal.OutValue

end
-- ==== Proof.Algebra.lean ====
/-
  The kernel's form and the reference's form of the two-layer graph convolution agree when the entries of
  adj, x and W1 are real.

  The two forms are the same term except for the association of the first product:
      Σ_j' (Σ_k' adj(k,k') · x(k',j')) · W1(j',j'')   against   Σ_k' adj(k,k') · (Σ_j' x(k',j') · W1(j',j'')).
  On the extended reals multiplication does not distribute over addition at the infinities, so the identity is
  proved in the reals: with real entries every product and every finite sum is the coercion of a real one, and
  in the reals both sides are the double sum Σ_k' Σ_j' adj(k,k') · x(k',j') · W1(j',j'').
-/
import proofs.«131862_g20117626815080_cont_8to1_815_21_alg».proof.Proof.Spec

noncomputable section

namespace Cert.GcnSpec

open Finset

/-- The coercion of a finite real sum is the sum of the coercions. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Associativity of the triple product in the reals: both sides are the same double sum. -/
theorem assoc_real {n d : Nat} (A : Fin n → Fin n → ℝ) (X : Fin n → Fin d → ℝ) (W : Fin d → Fin d → ℝ)
    (k : Fin n) (j'' : Fin d) :
    (∑ j', (∑ k', A k k' * X k' j') * W j' j'') = ∑ k', A k k' * (∑ j', X k' j' * W j' j'') := by
  simp only [Finset.sum_mul, Finset.mul_sum]
  rw [Finset.sum_comm]
  exact Finset.sum_congr rfl fun k' _ => Finset.sum_congr rfl fun j' _ => mul_assoc _ _ _

/-- The same identity on the extended reals, for real entries. -/
theorem assoc_coe {n d : Nat} (A : Fin n → Fin n → ℝ) (X : Fin n → Fin d → ℝ) (W : Fin d → Fin d → ℝ)
    (k : Fin n) (j'' : Fin d) :
    (∑ j', (∑ k', (A k k' : EReal) * (X k' j' : EReal)) * (W j' j'' : EReal))
      = ∑ k', (A k k' : EReal) * (∑ j', (X k' j' : EReal) * (W j' j'' : EReal)) := by
  simp only [← EReal.coe_mul, ← coe_finset_sum]
  rw [assoc_real]

/-- The kernel's form equals the reference's form when adj, x and W1 have real entries. -/
theorem kerForm_eq_refForm {n d : Nat} (adj : Fin n → Fin n → EReal) (x : Fin n → Fin d → EReal)
    (W1 : Fin d → Fin d → EReal) (b1 : Fin d → EReal) (W2 : Fin d → Fin d → EReal) (b2 : Fin d → EReal)
    (hadj : ∀ r k, ∃ a : ℝ, adj r k = (a : EReal)) (hx : ∀ k j, ∃ a : ℝ, x k j = (a : EReal))
    (hW1 : ∀ i j, ∃ a : ℝ, W1 i j = (a : EReal)) :
    kerForm adj x W1 b1 W2 b2 = refForm adj x W1 b1 W2 b2 := by
  choose A hA using hadj
  choose X hX using hx
  choose W hW using hW1
  obtain rfl : adj = fun r k => (A r k : EReal) := funext fun r => funext fun k => hA r k
  obtain rfl : x = fun k j => (X k j : EReal) := funext fun k => funext fun j => hX k j
  obtain rfl : W1 = fun i j => (W i j : EReal) := funext fun i => funext fun j => hW i j
  funext r j
  simp only [kerForm, h1w, refForm, layer]
  simp only [assoc_coe]

end Cert.GcnSpec

end
-- ==== Proof.Finite.lean ====
/-
  From the precondition to "every entry of x, adj and W1 is a real".

  The precondition is the conjunction, over the six argument arrays, of  all(|a| < +inf).  Read back:
  the conjunction of one-bit words is 1 exactly when each conjunct is; a reduction by "and" over all axes that
  is 1 had a 1 at every index; and an extended real v with  max v (-v) < +inf  is neither infinity, so it is
  the coercion of a real.
-/
import proofs.«131862_g20117626815080_cont_8to1_815_21_alg».proof.Defs
import proofs.«131862_g20117626815080_cont_8to1_815_21_alg».proof.Proof.Spec
import Idealize.ShloMosaic.Lib.ReduceAll

noncomputable section

namespace Cert.GcnFinite

open Idealize.ShloMosaic Idealize.SL.Sem Idealize.ShloMosaic.ValueIdx

/-- The word the precondition compares against is +inf. -/
theorem inf_word : Ideal.ofBits .f32 0x7F800000#32 = (⊤ : EReal) := by simp [Ideal.ofBits, Ideal.ieee]

/-- An extended real whose absolute value is below +inf is a real. -/
theorem real_of_abs_lt (v : EReal)
    (h : Ideal.cmp .olt (max v (-v)) (Ideal.ofBits .f32 0x7F800000#32) = 1#1) : ∃ a : ℝ, v = (a : EReal) := by
  rw [inf_word] at h
  induction v using EReal.rec with
  | bot => simp [Ideal.cmp] at h
  | coe a => exact ⟨a, rfl⟩
  | top => simp [Ideal.cmp] at h

/-- The rank-0 shape has one index. -/
instance : Subsingleton Cert.Pre_finite_inputs.S_.Idx := ⟨fun a b => funext fun d => d.elim0⟩

/-- One conjunct of the precondition, all(|a| < +inf) over an array of any shape, gives a real at every index. -/
theorem real_of_all {s : Shape} {axes : List (Fin s.rank)} (a : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
          (cmpf .olt (Host.absf (F := Ideal) a)
            (broadcastInDim s ![] hb (constant (F := Ideal) Cert.Pre_finite_inputs.S_ .f32 0x7F800000#32)))
          (constantI Cert.Pre_finite_inputs.S_ 1 1#1) hr hu ix0 = 1#1)
    (i : s.Idx) : ∃ r : ℝ, a i = (r : EReal) :=
  real_of_abs_lt (a i) (Host.reduce_andi_all _ _ hr hu ix0 e i)

/-- The precondition over six arrays: the first three have real entries. -/
theorem finite_core [hPre : Cert.Pre_finite_inputs.Facts]
    (x : FVec Ideal Cert.Pre_finite_inputs.S10000x128 .f32) (adj : FVec Ideal Cert.Pre_finite_inputs.S10000x10000 .f32)
    (W1 : FVec Ideal Cert.Pre_finite_inputs.S128x128 .f32) (b1 : FVec Ideal Cert.Pre_finite_inputs.S128 .f32)
    (W2 : FVec Ideal Cert.Pre_finite_inputs.S128x128 .f32) (b2 : FVec Ideal Cert.Pre_finite_inputs.S128 .f32)
    (h : Cert.Pre_finite_inputs.fn (F := Ideal) x adj W1 b1 W2 b2 = fun _ => 1#1) :
    (∀ i, ∃ a : ℝ, x i = (a : EReal)) ∧ (∀ i, ∃ a : ℝ, adj i = (a : EReal)) ∧ (∀ i, ∃ a : ℝ, W1 i = (a : EReal)) := by
  have h0 := congrFun h ix0
  dsimp only [Cert.Pre_finite_inputs.fn, Cert.Pre_finite_inputs.fn_part1] at h0
  obtain ⟨h23, -⟩ := IntOp.andi_eq_one.1 (show IntOp.andi _ _ = 1#1 from h0)
  obtain ⟨h18, -⟩ := IntOp.andi_eq_one.1 (show IntOp.andi _ _ = 1#1 from h23)
  obtain ⟨h13, -⟩ := IntOp.andi_eq_one.1 (show IntOp.andi _ _ = 1#1 from h18)
  obtain ⟨h8, h12⟩ := IntOp.andi_eq_one.1 (show IntOp.andi _ _ = 1#1 from h13)
  obtain ⟨h3, h7⟩ := IntOp.andi_eq_one.1 (show IntOp.andi _ _ = 1#1 from h8)
  exact ⟨real_of_all x _ _ _ h3, real_of_all adj _ _ _ h7, real_of_all W1 _ _ _ h12⟩

/-- The precondition of the idealized kernel, on any device: x, adj and W1 have real entries. -/
theorem finite_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ a : ℝ, m ((c.tc : Thread Cert.KernelIdeal.nD Cert.KernelIdeal.τ).loc Cert.KernelIdeal.main_arg0) i = (a : EReal))
    ∧ (∀ i, ∃ a : ℝ, m ((c.tc : Thread Cert.KernelIdeal.nD Cert.KernelIdeal.τ).loc Cert.KernelIdeal.main_arg1) i = (a : EReal))
    ∧ (∀ i, ∃ a : ℝ, m ((c.tc : Thread Cert.KernelIdeal.nD Cert.KernelIdeal.τ).loc Cert.KernelIdeal.main_arg2) i = (a : EReal)) :=
  finite_core _ _ _ _ _ _ (h c)

/-- The same, with the three arrays read as matrices: the hypotheses the algebraic identity asks for. -/
theorem finite_mat_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ k j, ∃ a : ℝ, Cert.GcnSpec.mat (a := 10000) (b := 128)
        (m ((c.tc : Thread Cert.KernelIdeal.nD Cert.KernelIdeal.τ).loc Cert.KernelIdeal.main_arg0)) k j = (a : EReal))
    ∧ (∀ r k, ∃ a : ℝ, Cert.GcnSpec.mat (a := 10000) (b := 10000)
        (m ((c.tc : Thread Cert.KernelIdeal.nD Cert.KernelIdeal.τ).loc Cert.KernelIdeal.main_arg1)) r k = (a : EReal))
    ∧ (∀ i j, ∃ a : ℝ, Cert.GcnSpec.mat (a := 128) (b := 128)
        (m ((c.tc : Thread Cert.KernelIdeal.nD Cert.KernelIdeal.τ).loc Cert.KernelIdeal.main_arg2)) i j = (a : EReal)) :=
  have H := finite_of_pre m h c
  ⟨fun k j => H.1 (ix2 k j), fun r k => H.2.1 (ix2 r k), fun i j => H.2.2 (ix2 i j)⟩

end Cert.GcnFinite

end
-- ==== Proof.BridgeI.lean ====
/-
  The kernel's result array is the reference's function of the argument arrays.

  Row r of the result is written back by the point that owns row block r / 400, and what that point left in the
  output's buffer is, index by index, the kernel's form of the two-layer convolution (`kerForm`) at row r.  Under the
  precondition the entries of x, adj and W1 are real, so the first product may be re-associated and `kerForm` is the
  reference's `refForm`, which is what the reference's run ends with.
-/
import proofs.«131862_g20117626815080_cont_8to1_815_21_alg».proof.Proof.OutRunI
import proofs.«131862_g20117626815080_cont_8to1_815_21_alg».proof.Proof.ValueI
import proofs.«131862_g20117626815080_cont_8to1_815_21_alg».proof.Proof.Algebra
import proofs.«131862_g20117626815080_cont_8to1_815_21_alg».proof.Proof.Finite
import proofs.«131862_g20117626815080_cont_8to1_815_21_alg».proof.Proof.RefRead

noncomputable section

namespace Cert.KernelIdeal.Bridge

open Idealize.ShloMosaic Idealize.ShloMosaic.ValueIdx Idealize.SL.Sem
open Cert.KernelIdeal Cert.KernelIdeal.Gen Cert.KernelIdeal.OutValue Cert.GcnSpec

/-- Row block b of the output is written back at point `wr b`, whose block index is b again. -/
theorem wr_block : ∀ b : Fin 25, (if wr b.val ≤ 25 then 24 else if wr b.val ≤ 27 then 49 - wr b.val else wr b.val - 28) = b.val := by
  decide

variable (m : (ℓ : Loc nD τ sig) → Buf (Elt Ideal) ℓ)

/-- The result array at an index: the kernel's form at that row and column. -/
theorem G6_apply (c : Dev nD) (z : S10000x128.Idx) :
    G6 (F := Ideal) m c z
      = kerForm (ADJ m c) (XX m c) (WW1 m c) (BB1 m c) (WW2 m c) (BB2 m c) ⟨(z (0 : Fin 2)).val, idx2_lt0 z⟩ ⟨(z (1 : Fin 2)).val, idx2_lt1 z⟩ := by
  have hz := idx2_lt0 z
  have hb : (z (0 : Fin 2)).val / 400 < 25 := by omega
  unfold G6
  refine out6_apply m c _ (wr_ge _) _ _ _ ?_
  show (z (0 : Fin 2)).val = 400 * (if wr ((z (0 : Fin 2)).val / 400) ≤ 25 then 24 else if wr ((z (0 : Fin 2)).val / 400) ≤ 27 then 49 - wr ((z (0 : Fin 2)).val / 400) else wr ((z (0 : Fin 2)).val / 400) - 28) + (z (0 : Fin 2)).val % 400
  rw [wr_block ⟨(z (0 : Fin 2)).val / 400, hb⟩]
  exact (Nat.div_add_mod _ _).symm

/-- Under the precondition the result array is the reference's function of the argument arrays. -/
theorem G6_eq_out [hPre : Cert.Pre_finite_inputs.Facts] (hpre : Cert.Pre_KernelIdeal m) (c : Dev nD) :
    G6 (F := Ideal) m c = Cert.ReferenceIdeal.RefValue.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) := by
  funext z
  have H := Cert.GcnFinite.finite_mat_of_pre m hpre c
  rw [G6_apply m c z, kerForm_eq_refForm _ _ _ _ _ _ H.2.1 H.1 H.2.2]
  rfl

end Cert.KernelIdeal.Bridge

end
-- ==== Proof.lean ====
/-
  The two-layer graph convolution with a dense adjacency: the fused kernel against the plain reference.

  The kernel walks a grid of 50 points over 400-row blocks of the adjacency.  Points 0–24 compute, block by block,
  lrelu((adj_blk · x) · W1 + b1) · W2 into a scratch that holds all 10000 rows (points 22 and 23 also keep their
  adjacency blocks in a second scratch); point 25 and points 28–49 compute lrelu(adj_blk · scratch + b2) for their own
  block, points 26 and 27 the same from the two kept blocks.  The reference is lrelu(adj · (lrelu(adj · (x · W1) + b1) · W2) + b2).
  Over the extended reals the two agree because (adj · x) · W1 = adj · (x · W1) when the entries of adj, x and W1 are
  real, which the precondition gives; everything else is the same term on both sides.

  The frames: each kernel program's body is run case by case (which branches a point takes is decided over the grid),
  under an invariant that says which row blocks of the two scratch buffers already hold their payloads; the reference's
  frame is its run with the result dropped.  No operation of the kernel was rewritten for the idealized reading, so the
  word-level program and the idealized one are the same text and `preserves` has nothing to state.
-/
import proofs.«131862_g20117626815080_cont_8to1_815_21_alg».proof.Defs
import proofs.«131862_g20117626815080_cont_8to1_815_21_alg».proof.Proof.Gen.Kernel
import proofs.«131862_g20117626815080_cont_8to1_815_21_alg».proof.Proof.Gen.KernelIdeal
import proofs.«131862_g20117626815080_cont_8to1_815_21_alg».proof.Proof.Gen.ReferenceIdeal
import proofs.«131862_g20117626815080_cont_8to1_815_21_alg».proof.Proof.Gen.Pre_finite_inputs
import proofs.«131862_g20117626815080_cont_8to1_815_21_alg».proof.Proof.BodyB
import proofs.«131862_g20117626815080_cont_8to1_815_21_alg».proof.Proof.BodyI
import proofs.«131862_g20117626815080_cont_8to1_815_21_alg».proof.Proof.RefRead
import proofs.«131862_g20117626815080_cont_8to1_815_21_alg».proof.Proof.BridgeI
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- At the ideal instance the kernel's result array is its own form of the convolution, row block by row block, and
    the reference's is `refForm` of arguments that agree; under the precondition the two are one function. -/
theorem algebraic : Cert.algebraic_KernelIdeal_ReferenceIdeal := by
  intro m ρ m' ρ' hpre hagree
  refine ⟨fun c => Cert.ReferenceIdeal.RefValue.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)), ?_, Cert.ReferenceIdeal.RefValue.run m' ρ'⟩
  refine (θ_run Cert.KernelIdeal.defs _ _).mono (fun _ h c => ⟨(h c).1.trans ?_, (h c).2⟩)
    (Cert.KernelIdeal.Gen.run_out (F := Ideal) m ρ)
  show Cert.KernelIdeal.Gen.G6 m c = Cert.ReferenceIdeal.RefValue.out (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
  rw [(hagree c).1, (hagree c).2.1, (hagree c).2.2.1, (hagree c).2.2.2.1, (hagree c).2.2.2.2.1, (hagree c).2.2.2.2.2]
  exact Cert.KernelIdeal.Bridge.G6_eq_out m hpre c

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
